-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S16x10 1) : IVec S_ 1 :=
  let main_c_5 : IVec S_ 1 := constantI S_ 1 1#1
  let main_v17 : IVec S_ 1 := (fun x v => Host.reduce IntOp.andi x v reducesTo_S16x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x10 .f32) (main_arg5 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x10 .f32 := Host.absf main_arg4
  let main_cst_4 : FVec F S_ .f32 := constant S_ .f32 0x7F800000#32
  let main_v15 : FVec F S16x10 .f32 := broadcastInDim S16x10 ![] bcast_S_S16x10 main_cst_4
  let main_v16 : IVec S16x10 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x100000 : Shape := ⟨2, ![1, 100000]⟩
abbrev S2x100000 : Shape := ⟨2, ![2, 100000]⟩
abbrev S2x3300000 : Shape := ⟨2, ![2, 3300000]⟩
abbrev S1x3300000 : Shape := ⟨2, ![1, 3300000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x10 : Shape := ⟨2, ![100000, 10]⟩
abbrev S5000x10 : Shape := ⟨2, ![5000, 10]⟩
abbrev S3300000x10 : Shape := ⟨2, ![3300000, 10]⟩
abbrev S1x10 : Shape := ⟨2, ![1, 10]⟩
abbrev S5000 : Shape := ⟨1, ![5000]⟩
abbrev S5000x1 : Shape := ⟨2, ![5000, 1]⟩

abbrev nBuf : Space → Nat
  | .hbm => 90
  | .vmem => 15
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x10, .f32⟩
  | .hbm, ⟨5, _⟩ => ⟨S10, .f32⟩
  | .hbm, ⟨6, _⟩ => ⟨S100000, .i32⟩
  | .hbm, ⟨7, _⟩ => ⟨S1x100000, .i32⟩
  | .hbm, ⟨8, _⟩ => ⟨S1x100000, .i32⟩
  | .hbm, ⟨9, _⟩ => ⟨S2x100000, .i32⟩
  | .hbm, ⟨10, _⟩ => ⟨S2x3300000, .i32⟩
  | .hbm, ⟨11, _⟩ => ⟨S1x3300000, .i32⟩
  | .hbm, ⟨12, _⟩ => ⟨S3300000, .i32⟩
  | .hbm, ⟨13, _⟩ => ⟨S1x3300000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x10, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x10, .f32⟩
  | .hbm, ⟨81, _⟩ => ⟨S3300000x1, .f32⟩
  | .hbm, ⟨82, _⟩ => ⟨S3300000x10, .f32⟩
  | .hbm, ⟨83, _⟩ => ⟨S3300000x10, .f32⟩
  | .hbm, ⟨84, _⟩ => ⟨S_, .f32⟩
  | .hbm, ⟨85, _⟩ => ⟨S100000x10, .f32⟩
  | .hbm, ⟨86, _⟩ => ⟨S3300000x1, .i32⟩
  | .hbm, ⟨87, _⟩ => ⟨S100000x10, .f32⟩
  | .hbm, ⟨88, _⟩ => ⟨S1x10, .f32⟩
  | .hbm, ⟨89, _⟩ => ⟨S100000x10, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x10, .f32⟩
  | .local _ .vmem, ⟨8, _⟩ => ⟨S5000x10, .f32⟩
  | .local _ .vmem, ⟨9, _⟩ => ⟨S5000x10, .f32⟩
  | .local _ .vmem, ⟨10, _⟩ => ⟨S5000x10, .f32⟩
  | .local _ .vmem, ⟨11, _⟩ => ⟨S5000x10, .f32⟩
  | .local _ .vmem, ⟨12, _⟩ => ⟨S1x10, .f32⟩
  | .local _ .vmem, ⟨13, _⟩ => ⟨S5000x10, .f32⟩
  | .local _ .vmem, ⟨14, _⟩ => ⟨S5000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x3200000_S2x100000_S2x3300000_d1 : Shape.Concatenates [S2x3200000, S2x100000] S2x3300000 1
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x10_S16x10_0_0 : ∀ a, (![0, 0] : Fin 2 → Nat) a + S16x10.size a ≤ S16x10.size a
  h_S16x10 : 0 < S16x10.numel
  inb_S5000x10_S5000x10_0_0 : ∀ a, (![0, 0] : Fin 2 → Nat) a + S5000x10.size a ≤ S5000x10.size a
  h_S5000x10 : 0 < S5000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  shapeCasts_S10_S1x10 : S10.ShapeCasts S1x10
  shapeCasts_S5000x10_S5000x10 : S5000x10.ShapeCasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x10_S5000x10_1_0_0_1_n_n_wf : DotDims.WF S5000x16 S16x10 S5000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x10.size a ≤ S16x10.size a
  hwx1_1 : ∀ i : grid1.Coords, EltTy.bits .f32 = 32 ∨ (Rect.block (s := S16x10) S16x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x10.size a ≤ S100000x10.size a
  hwx1_2 : ∀ i : grid1.Coords, EltTy.bits .f32 = 32 ∨ (Rect.block (s := S100000x10) S5000x10.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x10.size a ≤ S100000x10.size a
  hwx2_0 : ∀ i : grid2.Coords, EltTy.bits .f32 = 32 ∨ (Rect.block (s := S100000x10) S5000x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x10.size a ≤ S1x10.size a
  hwx2_1 : ∀ i : grid2.Coords, EltTy.bits .f32 = 32 ∨ (Rect.block (s := S1x10) S1x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x10.size a ≤ S100000x10.size a
  hwx2_2 : ∀ i : grid2.Coords, EltTy.bits .f32 = 32 ∨ (Rect.block (s := S100000x10) S5000x10.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x10_S5000x10_1_0_0_1_n_n : DotDims S5000x16 S16x10 S5000x10 where
  lhsContracting := [1]
  rhsContracting := [0]
  lhsNonContracting := [0]
  rhsNonContracting := [1]
  lhsBatch := []
  rhsBatch := []
  wf := dot_S5000x16_S16x10_S5000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S5000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x100000 : Shape := ⟨2, ![1, 100000]⟩
abbrev S2x100000 : Shape := ⟨2, ![2, 100000]⟩
abbrev S2x3300000 : Shape := ⟨2, ![2, 3300000]⟩
abbrev S100000x16 : Shape := ⟨2, ![100000, 16]⟩
abbrev S1x3300000 : Shape := ⟨2, ![1, 3300000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x10 : Shape := ⟨2, ![100000, 10]⟩
abbrev S3300000x10 : Shape := ⟨2, ![3300000, 10]⟩
abbrev S1x10 : Shape := ⟨2, ![1, 10]⟩
abbrev S100000x1 : Shape := ⟨2, ![100000, 1]⟩

abbrev nBuf : Space → Nat
  | .hbm => 143
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x10, .f32⟩
  | 5 => ⟨S10, .f32⟩
  | 6 => ⟨S100000, .i32⟩
  | 7 => ⟨S1x100000, .i32⟩
  | 8 => ⟨S1x100000, .i32⟩
  | 9 => ⟨S2x100000, .i32⟩
  | 10 => ⟨S2x3300000, .i32⟩
  | 11 => ⟨S100000x16, .f32⟩
  | 12 => ⟨S1x3300000, .i32⟩
  | 13 => ⟨S3300000, .i32⟩
  | 14 => ⟨S1x3300000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x10, .f32⟩
  | 72 => ⟨S1x3300000, .i32⟩
  | 73 => ⟨S3300000, .i32⟩
  | 74 => ⟨S1x3300000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000x10, .f32⟩
  | 118 => ⟨S3300000x1, .f32⟩
  | 119 => ⟨S3300000x10, .f32⟩
  | 120 => ⟨S3300000x10, .f32⟩
  | 121 => ⟨S_, .f32⟩
  | 122 => ⟨S100000x10, .f32⟩
  | 123 => ⟨S3300000x1, .i32⟩
  | 124 => ⟨S100000x10, .f32⟩
  | 125 => ⟨S1x10, .f32⟩
  | 126 => ⟨S100000x10, .f32⟩
  | 127 => ⟨S100000x10, .f32⟩
  | _ => ⟨S100000x512, .f32⟩

abbrev hbmTy0_1 (i : Nat) : BufTy := match i % 128 with
  | 0 => ⟨S_, .f32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x10, .f32⟩
  | 7 => ⟨S100000x10, .f32⟩
  | 8 => ⟨S100000x10, .f32⟩
  | 9 => ⟨S_, .f32⟩
  | 10 => ⟨S100000, .f32⟩
  | 11 => ⟨S100000x1, .f32⟩
  | 12 => ⟨S100000x1, .f32⟩
  | 13 => ⟨S100000x10, .f32⟩
  | 14 => ⟨S100000x10, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_17 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_call3_cst : Ref sig .tc := ⟨.hbm, 128, rfl⟩
abbrev main_call3_v0 : Ref sig .tc := ⟨.hbm, 129, rfl⟩
abbrev main_call3_cst_0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_cst_1 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_v94 : Ref sig .tc := ⟨.hbm, 142, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x3200000_S2x100000_S2x3300000_d1 : Shape.Concatenates [S2x3200000, S2x100000] S2x3300000 1
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x10_S100000x10_1_0_0_1_n_n_wf : DotDims.WF S100000x16 S16x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.KernelRun.lean ====
/-
  The idealized kernel's run with its result named.

  The program is nine segments in a row: host operations, the first dense product, host operations (the first
  aggregation, the bias, the rectifier), the second dense product, host operations (the second aggregation), and the
  bias-plus-log-softmax region. Every weakly fair execution terminates, nothing faults, the six argument arrays end as
  they were launched, and the result buffer ends at what the last boundary's contents hold for it. The contents at each
  boundary are the fold of the segments over the launch memory; this statement only adds the result buffer to the
  buffers read off the last boundary.
-/
import proofs.«159831_j67430986547796_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    for it, and the argument arrays end as launched. -/
theorem run : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Out

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.Dense1.lean ====
/-
  The first dense layer's product, read as one array.

  The grid has twenty points; point t multiplies rows 5000·t … 5000·t + 4999 of the [100000, 512] operand by the
  whole [512, 16] weight matrix and writes rows 5000·t … 5000·t + 4999 of the result. Over the extended reals a
  change of float format is the identity and a product accumulated into zeros is the plain sum over the contracted
  coordinate, so entry (5000·t + r, j) of the result is the sum over k of x (5000·t + r, k) · w (k, j): the entry of
  the one whole product of the two arrays. The twenty row bands tile the result, so the array the region leaves IS
  that whole product, whatever the two operand arrays held when the region was entered.
-/
import proofs.«159831_j67430986547796_1_alg».proof.Proof.Gen.KernelIdeal.Frame
import proofs.«159831_j67430986547796_1_alg».proof.Proof.RefRead
import proofs.«159831_j67430986547796_1_alg».proof.Proof.LibColumnBlocks
import Idealize.ShloMosaic.Lib.Pipeline.Value
import Idealize.ShloMosaic.Lib.ValueIdx
import Idealize.ShloMosaic.PureOps.Ideal.Laws

noncomputable section

namespace Cert.KernelIdeal.Dense1

open Cert.KernelIdeal Cert.KernelIdeal.Gen Idealize.ShloMosaic Idealize.ShloMosaic.TcCoe Idealize.ShloMosaic.ValueIdx
open Idealize.SL.Sem
open Idealize.ShloMosaic.Pipeline (Dat)

/-- The block offset ![0, 0] is the zero offset. -/
theorem hz : (![0, 0] : Fin 2 → Nat) = fun _ => 0 := funext fun a => by fin_cases a <;> rfl

/-- The record of the band product keeps the output's row on the left operand … -/
theorem lhs_row (i : S5000x16.Idx) (q : dot_S5000x512_S512x16_S5000x16_1_0_0_1_n_n.contr.Idx) :
    (dot_S5000x512_S512x16_S5000x16_1_0_0_1_n_n.lhsIdx i q 0).val = (i 0).val := by
  unfold DotDims.lhsIdx
  rw [dif_neg (show ¬(0 : Fin S5000x512.rank) ∈ dot_S5000x512_S512x16_S5000x16_1_0_0_1_n_n.lhsBatch by decide),
    dif_pos (show (0 : Fin S5000x512.rank) ∈ dot_S5000x512_S512x16_S5000x16_1_0_0_1_n_n.lhsNonContracting by decide)]
  rfl

/-- … and the output's column on the right operand. -/
theorem rhs_col (i : S5000x16.Idx) (q : dot_S5000x512_S512x16_S5000x16_1_0_0_1_n_n.contr.Idx) :
    (dot_S5000x512_S512x16_S5000x16_1_0_0_1_n_n.rhsIdx i q 1).val = (i 1).val := by
  unfold DotDims.rhsIdx
  rw [dif_neg (show ¬(1 : Fin S512x16.rank) ∈ dot_S5000x512_S512x16_S5000x16_1_0_0_1_n_n.rhsBatch by decide),
    dif_pos (show (1 : Fin S512x16.rank) ∈ dot_S5000x512_S512x16_S5000x16_1_0_0_1_n_n.rhsNonContracting by decide)]
  rfl

/-- One band's product at (r, j): the sum over k of band (r, k) · weights (k, j). -/
theorem band_apply (x0 : Vec Ideal S5000x512 .f32) (x1 : Vec Ideal S512x16 .f32) (r : Fin 5000) (j : Fin 16) :
    k0_pay1 x0 x1 (ix2 r j) = ∑ k : Fin 512, x0 (ix2 r k) * x1 (ix2 k j) := by
  unfold k0_pay1
  exact Cert.LibColumnBlocks.matmul_zero_apply dot_S5000x512_S512x16_S5000x16_1_0_0_1_n_n rfl rfl rfl rfl
    (fun i q => lhs_row i q) (fun i q => rhs_col i q) (truncf .bf16 x0 bitsLt_bf16_f32) (truncf .bf16 x1 bitsLt_bf16_f32) r j none

variable (V : (c : Dev nD) → (b : Ref sig .tc) → Buf (Elt Ideal) ((c : Thread nD τ).loc b))

/-- Where each window's block sits, decided over the twenty points: the operand's band and the result's band are
    the same rows, all columns; the weights are one block. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- The whole product of the two arrays the region finds. -/
abbrev whole (c : Dev nD) : S100000x16.Idx → EReal :=
  Cert.ReferenceIdeal.ReadP.val_main_v5 (F := Ideal) (V c main_arg0) (V c main_arg2)

/-- What point t writes back is band t of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  obtain ⟨e0, e1, e2, e3, e4, e5⟩ := idx_facts t
  funext y
  obtain ⟨r, j, rfl⟩ : ∃ (r : Fin 5000) (j : Fin 16), y = ix2 r j := ⟨y 0, y 1, eq_ix2 y⟩
  show k0_pay1 (iblk0 V c 0 t) (iblk0 V c 1 t) (ix2 r j)
    = Cert.ReferenceIdeal.ReadP.val_main_v5 (F := Ideal) (V c main_arg0) (V c main_arg2) (((cfg0.win 2).blk t).view.emb (ix2 r j))
  refine (band_apply (iblk0 V c 0 t) (iblk0 V c 1 t) r j).trans ?_
  refine Eq.trans ?_ (Cert.ReferenceIdeal.ReadP.val_main_v5_apply (V c main_arg0) (V c main_arg2) _).symm
  refine Finset.sum_congr rfl fun k _ => ?_
  have h0 : ((cfg0.win 0).blk t).view.emb (ix2 r k)
      = Cert.ReferenceIdeal.ReadP.lidx_main_v5 (((cfg0.win 2).blk t).view.emb (ix2 r j)) k := by
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 512 + 1 * k.val = k.val; omega
  have h1 : ((cfg0.win 1).blk t).view.emb (ix2 k j)
      = Cert.ReferenceIdeal.ReadP.ridx_main_v5 (((cfg0.win 2).blk t).view.emb (ix2 r j)) k := by
    funext a; apply Fin.ext
    match a with
    | ⟨0, _⟩ => show win0_1.index t (0 : Fin 2) * 512 + 1 * k.val = k.val; omega
    | ⟨1, _⟩ => show win0_1.index t (1 : Fin 2) * 16 + 1 * j.val = win0_2.index t (1 : Fin 2) * 16 + 1 * j.val; omega
  refine congrArg₂ (fun a b : EReal => a * b) ?_ ?_
  · exact congrArg (V c main_arg0) h0
  · exact congrArg (V c main_arg2) h1

/-- An index of the result is in point t's band iff each coordinate is in the band's range. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v32).slice (win0_2.rect t)).set ↔ _
  rw [View.set_slice_whole, Rect.mem_set_unit]
  exact Iff.rfl

/-- The twenty bands cover the result: row R is in band R / 5000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  let t : Fin cfg0.N := ⟨(i 0).val / 5000, by rw [hN]; omega⟩
  obtain ⟨e0, e1, e2, e3, e4, e5⟩ := idx_facts t
  have e5' : win0_2.index t (0 : Fin 2) = (i 0).val / 5000 := e5
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The result array after the region is the whole product of the two operand arrays as the region found them. -/
theorem final (c : Dev nD) : (dat0 V c).arrAt 2 cfg0.N = whole V c :=
  (dat0 V c).arrAt_eq_of_cover 2 (whole V c) (fun t _ => flushed_eq V c t) (cover)

end Cert.KernelIdeal.Dense1

end
-- ==== Proof.Dense2.lean ====
/-
  The second dense layer's product, read as one array.

  As in the first layer, point t of the twenty multiplies rows 5000·t … 5000·t + 4999 of the [100000, 16] operand by the
  whole [16, 10] weight matrix and writes the same rows of the result; over the extended reals entry (5000·t + r, j) is
  the sum over k of h (5000·t + r, k) · w (k, j), the entry of the one whole product, and the twenty bands tile the
  result. So when the region is entered with the rectified first layer and the second weight matrix in its two operand
  arrays, it leaves their whole product in the result array.
-/
import proofs.«159831_j67430986547796_1_alg».proof.Proof.Gen.KernelIdeal.Frame
import proofs.«159831_j67430986547796_1_alg».proof.Proof.LibColumnBlocks
import Idealize.ShloMosaic.Lib.Pipeline.Value
import Idealize.ShloMosaic.Lib.ValueIdx
import Idealize.ShloMosaic.PureOps.Ideal.Laws

noncomputable section

namespace Cert.KernelIdeal.Dense2

open Cert.KernelIdeal Cert.KernelIdeal.Gen Idealize.ShloMosaic Idealize.ShloMosaic.TcCoe Idealize.ShloMosaic.ValueIdx
open Idealize.SL.Sem
open Idealize.ShloMosaic.Pipeline (Dat)

/-- The block offset ![0, 0] is the zero offset. -/
theorem hz : (![0, 0] : Fin 2 → Nat) = fun _ => 0 := funext fun a => by fin_cases a <;> rfl

/-- The record of the band product keeps the output's row on the left operand … -/
theorem lhs_row (i : S5000x10.Idx) (q : dot_S5000x16_S16x10_S5000x10_1_0_0_1_n_n.contr.Idx) :
    (dot_S5000x16_S16x10_S5000x10_1_0_0_1_n_n.lhsIdx i q 0).val = (i 0).val := by
  unfold DotDims.lhsIdx
  rw [dif_neg (show ¬(0 : Fin S5000x16.rank) ∈ dot_S5000x16_S16x10_S5000x10_1_0_0_1_n_n.lhsBatch by decide),
    dif_pos (show (0 : Fin S5000x16.rank) ∈ dot_S5000x16_S16x10_S5000x10_1_0_0_1_n_n.lhsNonContracting by decide)]
  rfl

/-- … and the output's column on the right operand. -/
theorem rhs_col (i : S5000x10.Idx) (q : dot_S5000x16_S16x10_S5000x10_1_0_0_1_n_n.contr.Idx) :
    (dot_S5000x16_S16x10_S5000x10_1_0_0_1_n_n.rhsIdx i q 1).val = (i 1).val := by
  unfold DotDims.rhsIdx
  rw [dif_neg (show ¬(1 : Fin S16x10.rank) ∈ dot_S5000x16_S16x10_S5000x10_1_0_0_1_n_n.rhsBatch by decide),
    dif_pos (show (1 : Fin S16x10.rank) ∈ dot_S5000x16_S16x10_S5000x10_1_0_0_1_n_n.rhsNonContracting by decide)]
  rfl

/-- One band's product at (r, j): the sum over k of band (r, k) · weights (k, j). -/
theorem band_apply (x0 : Vec Ideal S5000x16 .f32) (x1 : Vec Ideal S16x10 .f32) (r : Fin 5000) (j : Fin 10) :
    k1_pay1 x0 x1 (ix2 r j) = ∑ k : Fin 16, x0 (ix2 r k) * x1 (ix2 k j) := by
  unfold k1_pay1
  refine (Cert.LibColumnBlocks.matmul_zero_apply dot_S5000x16_S16x10_S5000x10_1_0_0_1_n_n rfl rfl rfl rfl
    (fun i q => lhs_row i q) (fun i q => rhs_col i q)
    (truncf .bf16 (shapeCast S5000x16 x0 shapeCasts_S5000x16_S5000x16) bitsLt_bf16_f32) (truncf .bf16 x1 bitsLt_bf16_f32) r j none).trans ?_
  refine Finset.sum_congr rfl fun k _ => ?_
  show shapeCast S5000x16 x0 shapeCasts_S5000x16_S5000x16 (ix2 r k) * x1 (ix2 k j) = _
  rw [shapeCast_self]

variable (V : (c : Dev nD) → (b : Ref sig .tc) → Buf (Elt Ideal) ((c : Thread nD τ).loc b))

/-- Where each window's block sits, decided over the twenty points. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- The rectified first layer and the second weights, as the region finds them. -/
abbrev lhsArr (c : Dev nD) : S100000x16.Idx → EReal := V c main_v49
abbrev rhsArr (c : Dev nD) : S16x10.Idx → EReal := V c main_arg4

/-- What point t writes back is band t of any array G whose entry (R, j) is the sum over k of lhs (R, k) · rhs (k, j). -/
theorem flushed_eq (c : Dev nD) (G : S100000x10.Idx → EReal)
    (hG : ∀ (R : Fin 100000) (j : Fin 10), G (ix2 R j) = ∑ k : Fin 16, lhsArr V c (ix2 R k) * rhsArr V c (ix2 k j)) (t : Fin cfg1.N) :
    (dat1 V c).flushed 2 t = ((cfg1.win 2).blk t).view.read (Elt Ideal) G := by
  show (cfg1.win 2).cut (grid1.coords t) ((dat1 V c).after 2 t) = _
  rw [after1_2]
  unfold out1_2
  rw [View.canon_unit_zero hz]
  simp only [View.ld_unit_zero (S := S5000x16) hz, View.ld_unit_zero (S := S16x10) hz]
  obtain ⟨e0, e1, e2, e3, e4, e5⟩ := idx_facts t
  have ht : t.val < 20 := lt_of_lt_of_eq t.isLt N_1
  funext y
  obtain ⟨r, j, rfl⟩ : ∃ (r : Fin 5000) (j : Fin 10), y = ix2 r j := ⟨y 0, y 1, eq_ix2 y⟩
  show k1_pay1 (iblk1 V c 0 t) (iblk1 V c 1 t) (ix2 r j) = G (((cfg1.win 2).blk t).view.emb (ix2 r j))
  refine (band_apply (iblk1 V c 0 t) (iblk1 V c 1 t) r j).trans ?_
  have hr : r.val < 5000 := r.isLt
  have hR : win1_2.index t (0 : Fin 2) * 5000 + 1 * r.val < 100000 := by omega
  have hi : ((cfg1.win 2).blk t).view.emb (ix2 r j)
      = ix2 (⟨win1_2.index t (0 : Fin 2) * 5000 + 1 * r.val, hR⟩ : Fin 100000) j := by
    funext a; apply Fin.ext
    match a with
    | ⟨0, _⟩ => rfl
    | ⟨1, _⟩ => show win1_2.index t (1 : Fin 2) * 10 + 1 * j.val = j.val; omega
  rw [hi, hG]
  refine Finset.sum_congr rfl fun k _ => ?_
  have h0 : ((cfg1.win 0).blk t).view.emb (ix2 r k)
      = ix2 (⟨win1_2.index t (0 : Fin 2) * 5000 + 1 * r.val, hR⟩ : Fin 100000) k := by
    funext a; apply Fin.ext
    match a with
    | ⟨0, _⟩ => show win1_0.index t (0 : Fin 2) * 5000 + 1 * r.val = win1_2.index t (0 : Fin 2) * 5000 + 1 * r.val; omega
    | ⟨1, _⟩ => show win1_0.index t (1 : Fin 2) * 16 + 1 * k.val = k.val; omega
  have h1 : ((cfg1.win 1).blk t).view.emb (ix2 k j) = ix2 k j := by
    funext a; apply Fin.ext
    match a with
    | ⟨0, _⟩ => show win1_1.index t (0 : Fin 2) * 16 + 1 * k.val = k.val; omega
    | ⟨1, _⟩ => show win1_1.index t (1 : Fin 2) * 10 + 1 * j.val = j.val; omega
  refine congrArg₂ (fun a b : EReal => a * b) ?_ ?_
  · exact congrArg (V c main_v49) h0
  · exact congrArg (V c main_arg4) h1

/-- An index of the result is in point t's band iff each coordinate is in the band's range. -/
theorem mem_blk (t : Fin cfg1.N) (i : S100000x10.Idx) :
    i ∈ ((cfg1.win 2).blk t).view.set ↔ ∀ a : Fin 2, win1_2.index t a * S5000x10.size a ≤ (i a).val ∧ (i a).val < win1_2.index t a * S5000x10.size a + S5000x10.size a := by
  show i ∈ ((View.whole main_v50).slice (win1_2.rect t)).set ↔ _
  rw [View.set_slice_whole, Rect.mem_set_unit]
  exact Iff.rfl

/-- The twenty bands cover the result: row R is in band R / 5000. -/
theorem cover (i : S100000x10.Idx) : ∃ t : Fin cfg1.N, (cfg1.win 2).flush t = true ∧ i ∈ ((cfg1.win 2).blk t).view.set := by
  have hi0 : (i 0).val < 100000 := (i 0).isLt
  have hi1 : (i 1).val < 10 := (i 1).isLt
  have hN : cfg1.N = 20 := N_1
  let t : Fin cfg1.N := ⟨(i 0).val / 5000, by rw [hN]; omega⟩
  obtain ⟨e0, e1, e2, e3, e4, e5⟩ := idx_facts t
  have e5' : win1_2.index t (0 : Fin 2) = (i 0).val / 5000 := e5
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 10 ≤ (i 1).val ∧ (i 1).val < win1_2.index t (1 : Fin 2) * 10 + 10; omega

/-- The result array after the region is any array whose entries are those sums: the whole product. -/
theorem final (c : Dev nD) (G : S100000x10.Idx → EReal)
    (hG : ∀ (R : Fin 100000) (j : Fin 10), G (ix2 R j) = ∑ k : Fin 16, lhsArr V c (ix2 R k) * rhsArr V c (ix2 k j)) :
    (dat1 V c).arrAt 2 cfg1.N = G :=
  (dat1 V c).arrAt_eq_of_cover 2 G (fun t _ => flushed_eq V c G hG t) (cover)

end Cert.KernelIdeal.Dense2

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.LibRowMax.lean ====
/-
  Row maxima read at coordinates, at the extended reals.

  A maximum over the last axis of an [A, B] array — the kernel-side reduction started from the accumulator word 0xFF800000, and
  the host's one-operand reduce with a maximum body from any initial value — read at row a is the running maximum, from the
  starting value, of the row's entries (a, k), k over the last axis. And a running maximum started from b is at least b,
  so taking the maximum with b once more changes nothing. Every statement is over arbitrary extents and spells indices by
  their coordinates.
-/
import Idealize.ShloMosaic.PureOps.Ideal.Laws
import Idealize.ShloMosaic.Lib.ValueIdx
import Idealize.ShloMosaic.Lib.Pipeline.Value

noncomputable section

namespace Cert.LibRowMax

open Idealize.ShloMosaic Idealize.ShloMosaic.ValueIdx

/-- A maximum over the last axis of an [A, B] vector, at a: the running maximum, from the accumulator's value, of the
    entries (a, k). -/
theorem max_last2 {A B : ℕ} (src : FVec Ideal ⟨2, ![A, B]⟩ .f32)
    (h : (⟨2, ![A, B]⟩ : Shape).Reduces [1] ⟨1, ![A]⟩) (hφ : FKind.Formats .f32)
    (hacc : (0xFF800000#32 : BitVec 32) = 0xFF800000#32) (a : Fin A) :
    multiReduction .maximumf [1] ⟨1, ![A]⟩ src 0xFF800000#32 h hφ hacc (ix1 a)
      = (Finset.univ : Finset (Fin B)).fold max (FloatOps.ofBits (F := Ideal) .f32 0xFF800000#32) (fun k => src (ix2 a k)) := by
  refine (Ideal.multiReduction_maximumf_single src 0xFF800000#32 h hφ hacc (ix1 a)).trans ?_
  refine congrArg (Finset.univ.fold max (FloatOps.ofBits (F := Ideal) .f32 0xFF800000#32)) ?_
  funext k
  exact congrArg src (funext fun d => by
    match d with
    | ⟨0, _⟩ => rfl
    | ⟨1, _⟩ => rfl)

/-- The host's maximum over the last axis of an [A, B] array, at a: the running maximum, from the initial value, of the
    entries (a, k). -/
theorem hostmax_last2 {A B : ℕ} (x : (⟨2, ![A, B]⟩ : Shape).Idx → EReal) (init : (⟨0, ![]⟩ : Shape).Idx → EReal)
    (h' : (⟨2, ![A, B]⟩ : Shape).ReducesTo [1] ⟨1, ![A]⟩) (h : (⟨2, ![A, B]⟩ : Shape).Reduces [1] ⟨1, ![A]⟩)
    (hu : 0 < (⟨0, ![]⟩ : Shape).numel) (a : Fin A) :
    Host.reduce (FloatOps.maximumf (F := Ideal) (φ := .f32)) x init h' hu (ix1 a)
      = (Finset.univ : Finset (Fin B)).fold max (init (Shape.Idx.first hu)) (fun k => x (ix2 a k)) := by
  refine (Host.reduce_eq_fold_single (FloatOps.maximumf (F := Ideal) (φ := .f32)) x init h' h hu (ix1 a)).trans ?_
  refine congrArg (Finset.univ.fold max (init (Shape.Idx.first hu))) ?_
  funext k
  exact congrArg x (funext fun d => by
    match d with
    | ⟨0, _⟩ => rfl
    | ⟨1, _⟩ => rfl)

/-- A running maximum over a finite set started from b is at least b: the maximum with b once more is itself. -/
theorem max_fold {ι : Type} (s : Finset ι) (b : EReal) (row : ι → EReal) : max b (s.fold max b row) = s.fold max b row := by
  classical
  have h : ∀ s : Finset ι, b ≤ s.fold max b row := fun s => by
    induction s using Finset.induction_on with
    | empty => simp
    | insert a s ha ih => rw [Finset.fold_insert ha]; exact le_max_of_le_right ih
  exact max_eq_right (h s)

end Cert.LibRowMax

end
-- ==== Proof.Softmax.lean ====
/-
  One band of the bias-plus-log-softmax kernel, read at an entry.

  The body adds the bias row to a band of 5000 rows, takes each row's maximum M (a running maximum started from the
  accumulator's value), subtracts it, exponentiates, sums each row, takes the logarithm and subtracts it. So entry
  (r, j) of what the body stores is (x(r, j) − M) − log (Σₖ exp (x(r, k) − M)), where x(r, k) is band entry (r, k) plus
  bias entry k and M is the maximum over the row's ten entries: the log-softmax of row r, a function of that row alone.
-/
import proofs.«159831_j67430986547796_1_alg».proof.Proof.Gen.KernelIdeal.Skeleton
import proofs.«159831_j67430986547796_1_alg».proof.Proof.LibRowOps
import proofs.«159831_j67430986547796_1_alg».proof.Proof.LibRowMax
import Idealize.ShloMosaic.Lib.Pipeline.Value
import Idealize.ShloMosaic.Lib.ValueIdx
import Idealize.ShloMosaic.PureOps.Ideal.Laws

noncomputable section

namespace Cert.KernelIdeal.Softmax

open Cert.KernelIdeal Cert.KernelIdeal.Gen Idealize.ShloMosaic Idealize.ShloMosaic.ValueIdx Cert.LibRowMax

/-- The log-softmax of a row of ten extended reals, its maximum taken as a running maximum from `b`:
    entry j is (row j − M) − log (Σₖ exp (row k − M)). -/
def lsm (b : EReal) (row : Fin 10 → EReal) (j : Fin 10) : EReal :=
  (row j - Finset.univ.fold max b row) - Ideal.log (∑ k : Fin 10, Ideal.exp (row k - Finset.univ.fold max b row))

/-- A band with each row's maximum subtracted. -/
def centered (v : FVec Ideal S5000x10 .f32) : FVec Ideal S5000x10 .f32 :=
  subf v (broadcastTo S5000x10 (shapeCast S5000x1 (multiReduction .maximumf [1] S5000 v 0xFF800000#32 reduces_S5000x10_S5000 (.inl rfl) rfl) shapeCasts_S5000_S5000x1) broadcasts_S5000x1_S5000x10)

/-- The body after the bias is added: centre each row, subtract the logarithm of the row's sum of exponentials. -/
def tail (v : FVec Ideal S5000x10 .f32) : FVec Ideal S5000x10 .f32 :=
  subf (centered v) (broadcastTo S5000x10 (log (shapeCast S5000x1 (multiReduction .add [1] S5000 (exp (centered v)) 0x00000000#32 reduces_S5000x10_S5000 (.inl rfl) rfl) shapeCasts_S5000_S5000x1)) broadcasts_S5000x1_S5000x10)

/-- The stored value is the tail of the band plus the bias row. -/
theorem pay_eq (x0 : Vec Ideal S5000x10 .f32) (x1 : Vec Ideal S1x10 .f32) :
    k2_pay1 x0 x1 = tail (addf (shapeCast S5000x10 x0 shapeCasts_S5000x10_S5000x10)
      (broadcastTo S5000x10 (shapeCast S1x10 x1 shapeCasts_S1x10_S1x10) broadcasts_S1x10_S5000x10)) := rfl

/-- A centred band at (a, k). -/
theorem centered_apply (v : FVec Ideal S5000x10 .f32) (a : Fin 5000) (k : Fin 10) :
    centered v (ix2 a k) = v (ix2 a k) - Finset.univ.fold max (FloatOps.ofBits (F := Ideal) .f32 0xFF800000#32) (fun k => v (ix2 a k)) := by
  unfold centered
  rw [subf_apply, Cert.LibRowOps.bcast_a1_ab, Cert.LibRowOps.cast_a_a1]
  exact congrArg (fun M => v (ix2 a k) - M) (max_last2 v reduces_S5000x10_S5000 (.inl rfl) rfl a)

/-- The tail at (r, j) is the log-softmax of row r. -/
theorem tail_apply (v : FVec Ideal S5000x10 .f32) (r : Fin 5000) (j : Fin 10) :
    tail v (ix2 r j) = lsm (FloatOps.ofBits (F := Ideal) .f32 0xFF800000#32) (fun k => v (ix2 r k)) j := by
  unfold tail lsm
  rw [subf_apply, Cert.LibRowOps.bcast_a1_ab]
  show centered v (ix2 r j) - Ideal.log (shapeCast S5000x1 (multiReduction .add [1] S5000 (exp (centered v)) 0x00000000#32 reduces_S5000x10_S5000 (.inl rfl) rfl) shapeCasts_S5000_S5000x1 (ix2 r 0)) = _
  rw [Cert.LibRowOps.cast_a_a1, Cert.LibRowOps.sum_last2, centered_apply]
  refine congrArg (fun s => _ - Ideal.log s) (Finset.sum_congr rfl fun k _ => ?_)
  show Ideal.exp (centered v (ix2 r k)) = _
  rw [centered_apply]

/-- The stored value at (r, j): the log-softmax of band row r plus the bias row. -/
theorem pay_apply (x0 : Vec Ideal S5000x10 .f32) (x1 : Vec Ideal S1x10 .f32) (r : Fin 5000) (j : Fin 10) :
    k2_pay1 x0 x1 (ix2 r j)
      = lsm (FloatOps.ofBits (F := Ideal) .f32 0xFF800000#32) (fun k => x0 (ix2 r k) + x1 (ix2 0 k)) j := by
  rw [pay_eq, tail_apply]
  refine congrArg (fun row => lsm _ row j) (funext fun k => ?_)
  rw [addf_apply, shapeCast_self, shapeCast_self, Cert.LibRowOps.bcast_1b_ab]

end Cert.KernelIdeal.Softmax

end
-- ==== Proof.LogSoftmax.lean ====
/-
  The bias-plus-log-softmax region, read as one array.

  Point t of the twenty takes rows 5000·t … 5000·t + 4999 of the [100000, 10] operand and the whole [1, 10] bias row and
  writes the same rows of the result: entry (5000·t + r, j) is the log-softmax, at j, of the operand's row 5000·t + r plus
  the bias. The reference adds the bias to the whole array and takes the log-softmax of every row; its row maximum is
  max(−∞-constant, running maximum from the same constant), which is the running maximum, and its sum of exponentials
  starts from the zero word, which is 0. So both sides are the same function of one row, the twenty bands tile the
  result, and the array the region leaves is the reference's last stage whenever its two operand arrays hold the
  aggregated second layer and the bias.
-/
import proofs.«159831_j67430986547796_1_alg».proof.Proof.Gen.KernelIdeal.Frame
import proofs.«159831_j67430986547796_1_alg».proof.Proof.RefRead
import proofs.«159831_j67430986547796_1_alg».proof.Proof.Softmax
import proofs.«159831_j67430986547796_1_alg».proof.Proof.LibRowMax
import Idealize.ShloMosaic.Lib.Pipeline.Value
import Idealize.ShloMosaic.Lib.ValueIdx
import Idealize.ShloMosaic.PureOps.Ideal.Laws

noncomputable section

namespace Cert.KernelIdeal.LogSoftmax

open Cert.KernelIdeal Cert.KernelIdeal.Gen Idealize.ShloMosaic Idealize.ShloMosaic.TcCoe Idealize.ShloMosaic.ValueIdx
open Idealize.SL.Sem
open Idealize.ShloMosaic.Pipeline (Dat)
open Cert.KernelIdeal.Softmax

/-! ## The reference's log-softmax at an entry -/

section Ref
open Cert.ReferenceIdeal.ReadP
variable (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x10, .f32⟩ : BufTy).Contents (Elt Ideal)) (x5 : (⟨S10, .f32⟩ : BufTy).Contents (Elt Ideal))

/-- The biased logits at (R, k): the aggregated second layer at (R, k) plus bias entry k. -/
theorem logits_apply (R : Fin 100000) (k : Fin 10) :
    val_main_v93 (F := Ideal) x0 x1 x2 x3 x4 x5 (ix2 R k) = val_main_v90 (F := Ideal) x0 x1 x2 x3 x4 (ix2 R k) + x5 (ix1 k) := by
  rw [val_main_v93_apply, val_main_v92_apply, val_main_v91_apply, Ideal.addf_def]
  generalize val_main_v90 (F := Ideal) x0 x1 x2 x3 x4 = A
  exact congrArg (fun i => A (ix2 R k) + x5 i) (funext fun a => by
    match a with
    | ⟨0, _⟩ => rfl)

/-- Row R's running maximum. -/
theorem rowmax_apply (R : Fin 100000) :
    val_main_call3_v0 (F := Ideal) x0 x1 x2 x3 x4 x5 (ix1 R)
      = Finset.univ.fold max (FloatOps.ofBits (F := Ideal) .f32 0xFF800000#32) (fun k : Fin 10 => val_main_v93 (F := Ideal) x0 x1 x2 x3 x4 x5 (ix2 R k)) := by
  unfold val_main_call3_v0
  generalize val_main_v93 (F := Ideal) x0 x1 x2 x3 x4 x5 = X
  have h : (⟨2, ![100000, 10]⟩ : Shape).Reduces [1] ⟨1, ![100000]⟩ := by decide
  exact Cert.LibRowMax.hostmax_last2 X _ _ h _ R

/-- The maximum the reference subtracts at (R, k) is row R's running maximum. -/
theorem rowmax_bcast (R : Fin 100000) (k : Fin 10) :
    val_main_call3_v4 (F := Ideal) x0 x1 x2 x3 x4 x5 (ix2 R k)
      = Finset.univ.fold max (FloatOps.ofBits (F := Ideal) .f32 0xFF800000#32) (fun k : Fin 10 => val_main_v93 (F := Ideal) x0 x1 x2 x3 x4 x5 (ix2 R k)) := by
  rw [val_main_call3_v4_apply, val_main_call3_v3_apply, val_main_call3_v2_apply, val_main_call3_v1_apply]
  have hi : idx_main_call3_v3 (idx_main_call3_v4 (ix2 R k)) = ix1 R := funext fun a => by
    match a with
    | ⟨0, _⟩ => rfl
  rw [hi, rowmax_apply, val_main_call3_cst_0_apply, Ideal.maximumf_def]
  exact Cert.LibRowMax.max_fold Finset.univ (FloatOps.ofBits (F := Ideal) .f32 0xFF800000#32) _

/-- The centred logits at (R, k). -/
theorem centred_apply (R : Fin 100000) (k : Fin 10) :
    val_main_call3_v5 (F := Ideal) x0 x1 x2 x3 x4 x5 (ix2 R k)
      = val_main_v93 (F := Ideal) x0 x1 x2 x3 x4 x5 (ix2 R k)
        - Finset.univ.fold max (FloatOps.ofBits (F := Ideal) .f32 0xFF800000#32) (fun k : Fin 10 => val_main_v93 (F := Ideal) x0 x1 x2 x3 x4 x5 (ix2 R k)) := by
  rw [val_main_call3_v5_apply, rowmax_bcast, Ideal.subf_def]

/-- Row R's sum of exponentials. -/
theorem rowsum_apply (R : Fin 100000) :
    val_main_call3_v7 (F := Ideal) x0 x1 x2 x3 x4 x5 (ix1 R) = ∑ k : Fin 10, Ideal.exp (val_main_call3_v5 (F := Ideal) x0 x1 x2 x3 x4 x5 (ix2 R k)) := by
  rw [val_main_call3_v7_apply, val_main_call3_cst_1_apply, Ideal.ofBits_def, Ideal.ofBits_zero_f32, zero_add]
  refine Finset.sum_congr rfl fun k _ => ?_
  rw [val_main_call3_v6_apply, Ideal.hostUnary_exp_def]
  generalize val_main_call3_v5 (F := Ideal) x0 x1 x2 x3 x4 x5 = Z
  exact congrArg (fun i => Ideal.exp (Z i)) (funext fun a => by
    match a with
    | ⟨0, _⟩ => rfl
    | ⟨1, _⟩ => rfl)

/-- The logarithm the reference subtracts at (R, j). -/
theorem logsum_apply (R : Fin 100000) (j : Fin 10) :
    val_main_call3_v10 (F := Ideal) x0 x1 x2 x3 x4 x5 (ix2 R j) = Ideal.log (∑ k : Fin 10, Ideal.exp (val_main_call3_v5 (F := Ideal) x0 x1 x2 x3 x4 x5 (ix2 R k))) := by
  rw [val_main_call3_v10_apply, val_main_call3_v9_apply, val_main_call3_v8_apply]
  have hi : idx_main_call3_v8 (idx_main_call3_v10 (ix2 R j)) = ix1 R := funext fun a => by
    match a with
    | ⟨0, _⟩ => rfl
  rw [hi, rowsum_apply, Ideal.hostUnary_log_def]

/-- The reference's result at (R, j): the log-softmax of the biased row R. -/
theorem ref_apply (R : Fin 100000) (j : Fin 10) :
    val_main_v94 (F := Ideal) x0 x1 x2 x3 x4 x5 (ix2 R j)
      = lsm (FloatOps.ofBits (F := Ideal) .f32 0xFF800000#32) (fun k => val_main_v90 (F := Ideal) x0 x1 x2 x3 x4 (ix2 R k) + x5 (ix1 k)) j := by
  rw [val_main_v94_apply, logsum_apply, Ideal.subf_def, centred_apply]
  unfold lsm
  have hrow : (fun k : Fin 10 => val_main_v93 (F := Ideal) x0 x1 x2 x3 x4 x5 (ix2 R k))
      = fun k => val_main_v90 (F := Ideal) x0 x1 x2 x3 x4 (ix2 R k) + x5 (ix1 k) := funext fun k => logits_apply x0 x1 x2 x3 x4 x5 R k
  have hexp : ∀ k : Fin 10, val_main_call3_v5 (F := Ideal) x0 x1 x2 x3 x4 x5 (ix2 R k)
      = (val_main_v90 (F := Ideal) x0 x1 x2 x3 x4 (ix2 R k) + x5 (ix1 k))
        - Finset.univ.fold max (FloatOps.ofBits (F := Ideal) .f32 0xFF800000#32) (fun k => val_main_v90 (F := Ideal) x0 x1 x2 x3 x4 (ix2 R k) + x5 (ix1 k)) :=
    fun k => by rw [centred_apply, hrow, logits_apply]
  rw [hrow, logits_apply]
  have hsum : (∑ k : Fin 10, Ideal.exp (val_main_call3_v5 (F := Ideal) x0 x1 x2 x3 x4 x5 (ix2 R k)))
      = ∑ k : Fin 10, Ideal.exp ((val_main_v90 (F := Ideal) x0 x1 x2 x3 x4 (ix2 R k) + x5 (ix1 k))
        - Finset.univ.fold max (FloatOps.ofBits (F := Ideal) .f32 0xFF800000#32) (fun k => val_main_v90 (F := Ideal) x0 x1 x2 x3 x4 (ix2 R k) + x5 (ix1 k))) :=
    Finset.sum_congr rfl fun k _ => by rw [hexp k]
  rw [hsum]

end Ref

/-! ## The region -/

/-- The block offset ![0, 0] is the zero offset. -/
theorem hz : (![0, 0] : Fin 2 → Nat) = fun _ => 0 := funext fun a => by fin_cases a <;> rfl

variable (V : (c : Dev nD) → (b : Ref sig .tc) → Buf (Elt Ideal) ((c : Thread nD τ).loc b))

/-- Where each window's block sits, decided over the twenty points. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- The aggregated second layer and the bias row, as the region finds them. -/
abbrev aggArr (c : Dev nD) : S100000x10.Idx → EReal := V c main_v63
abbrev biasArr (c : Dev nD) : S1x10.Idx → EReal := V c main_v64

/-- What point t writes back is band t of any array G whose entry (R, j) is the log-softmax, at j, of row R of the
    operand plus the bias row. -/
theorem flushed_eq (c : Dev nD) (G : S100000x10.Idx → EReal)
    (hG : ∀ (R : Fin 100000) (j : Fin 10), G (ix2 R j)
      = lsm (FloatOps.ofBits (F := Ideal) .f32 0xFF800000#32) (fun k => aggArr V c (ix2 R k) + biasArr V c (ix2 (0 : Fin 1) k)) j)
    (t : Fin cfg2.N) :
    (dat2 V c).flushed 2 t = ((cfg2.win 2).blk t).view.read (Elt Ideal) G := by
  show (cfg2.win 2).cut (grid2.coords t) ((dat2 V c).after 2 t) = _
  rw [after2_2]
  unfold out2_2
  rw [View.canon_unit_zero hz]
  simp only [View.ld_unit_zero (S := S5000x10) hz, View.ld_unit_zero (S := S1x10) hz]
  obtain ⟨e0, e1, e2, e3, e4, e5⟩ := idx_facts t
  have ht : t.val < 20 := lt_of_lt_of_eq t.isLt N_2
  funext y
  obtain ⟨r, j, rfl⟩ : ∃ (r : Fin 5000) (j : Fin 10), y = ix2 r j := ⟨y 0, y 1, eq_ix2 y⟩
  show k2_pay1 (iblk2 V c 0 t) (iblk2 V c 1 t) (ix2 r j) = G (((cfg2.win 2).blk t).view.emb (ix2 r j))
  refine (pay_apply (iblk2 V c 0 t) (iblk2 V c 1 t) r j).trans ?_
  have hr : r.val < 5000 := r.isLt
  have hR : win2_2.index t (0 : Fin 2) * 5000 + 1 * r.val < 100000 := by omega
  have hi : ((cfg2.win 2).blk t).view.emb (ix2 r j)
      = ix2 (⟨win2_2.index t (0 : Fin 2) * 5000 + 1 * r.val, hR⟩ : Fin 100000) j := by
    funext a; apply Fin.ext
    match a with
    | ⟨0, _⟩ => rfl
    | ⟨1, _⟩ => show win2_2.index t (1 : Fin 2) * 10 + 1 * j.val = j.val; omega
  rw [hi, hG]
  refine congrArg (fun row => lsm _ row j) (funext fun k => ?_)
  refine congrArg₂ (fun a b : EReal => a + b) ?_ ?_
  · have h0 : ((cfg2.win 0).blk t).view.emb (ix2 r k)
        = ix2 (⟨win2_2.index t (0 : Fin 2) * 5000 + 1 * r.val, hR⟩ : Fin 100000) k := by
      funext a; apply Fin.ext
      match a with
      | ⟨0, _⟩ => show win2_0.index t (0 : Fin 2) * 5000 + 1 * r.val = win2_2.index t (0 : Fin 2) * 5000 + 1 * r.val; omega
      | ⟨1, _⟩ => show win2_0.index t (1 : Fin 2) * 10 + 1 * k.val = k.val; omega
    exact congrArg (V c main_v63) h0
  · have h1 : ((cfg2.win 1).blk t).view.emb (ix2 (0 : Fin 1) k) = ix2 (0 : Fin 1) k := by
      funext a; apply Fin.ext
      match a with
      | ⟨0, _⟩ => show win2_1.index t (0 : Fin 2) * 1 + 1 * 0 = 0; omega
      | ⟨1, _⟩ => show win2_1.index t (1 : Fin 2) * 10 + 1 * k.val = k.val; omega
    exact congrArg (V c main_v64) h1

/-- An index of the result is in point t's band iff each coordinate is in the band's range. -/
theorem mem_blk (t : Fin cfg2.N) (i : S100000x10.Idx) :
    i ∈ ((cfg2.win 2).blk t).view.set ↔ ∀ a : Fin 2, win2_2.index t a * S5000x10.size a ≤ (i a).val ∧ (i a).val < win2_2.index t a * S5000x10.size a + S5000x10.size a := by
  show i ∈ ((View.whole main_v65).slice (win2_2.rect t)).set ↔ _
  rw [View.set_slice_whole, Rect.mem_set_unit]
  exact Iff.rfl

/-- The twenty bands cover the result: row R is in band R / 5000. -/
theorem cover (i : S100000x10.Idx) : ∃ t : Fin cfg2.N, (cfg2.win 2).flush t = true ∧ i ∈ ((cfg2.win 2).blk t).view.set := by
  have hi0 : (i 0).val < 100000 := (i 0).isLt
  have hi1 : (i 1).val < 10 := (i 1).isLt
  have hN : cfg2.N = 20 := N_2
  let t : Fin cfg2.N := ⟨(i 0).val / 5000, by rw [hN]; omega⟩
  obtain ⟨e0, e1, e2, e3, e4, e5⟩ := idx_facts t
  have e5' : win2_2.index t (0 : Fin 2) = (i 0).val / 5000 := e5
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 10 ≤ (i 1).val ∧ (i 1).val < win2_2.index t (1 : Fin 2) * 10 + 10; omega

/-- The result array after the region is any array whose entries are those log-softmaxes. -/
theorem final (c : Dev nD) (G : S100000x10.Idx → EReal)
    (hG : ∀ (R : Fin 100000) (j : Fin 10), G (ix2 R j)
      = lsm (FloatOps.ofBits (F := Ideal) .f32 0xFF800000#32) (fun k => aggArr V c (ix2 R k) + biasArr V c (ix2 (0 : Fin 1) k)) j) :
    (dat2 V c).arrAt 2 cfg2.N = G :=
  (dat2 V c).arrAt_eq_of_cover 2 G (fun t _ => flushed_eq V c G hG t) (cover)

end Cert.KernelIdeal.LogSoftmax

end
-- ==== Proof.Glue1.lean ====
/-
  The host operations before the first dense product, read as values.

  Before the first region the program builds the edge list with one self loop per node appended, splits it into its source
  row and its target row, counts each node's incoming edges by a scatter sum of ones, takes the reciprocal square root
  of the counts where they are positive, and multiplies the two gathered factors into one weight per edge. Each of the
  three stretches of operations is read over ANY memory: what it leaves in a buffer is a stage of the reference's own
  reading of the edge-list argument, given that the buffers it reads hold the earlier stages. None of these operations
  writes an argument array.
-/
import proofs.«159831_j67430986547796_1_alg».proof.Proof.Gen.KernelIdeal.Frame
import proofs.«159831_j67430986547796_1_alg».proof.Proof.RefRead

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo Idealize.ShloMosaic.ValueIdx
/-- The source row of the extended edge list. -/
theorem pre_row (x1 : (⟨S2x3200000, .i32⟩ : BufTy).Contents (Elt Ideal)) (W : Valuation τ sig (Elt Ideal)) (h0 : W (Proc.devRef .tc main_arg1) = x1) :
    StableHlo.after hostOps0 W (Proc.devRef .tc main_v6) = Cert.ReferenceIdeal.ReadP.val_main_v7 (F := Ideal) x1 := by
  dsimp only [hostOps0]
  after_results
  all_goals (try rw [h0])
  all_goals rfl

/-- The target row of the extended edge list. -/
theorem pre_col (x1 : (⟨S2x3200000, .i32⟩ : BufTy).Contents (Elt Ideal)) (W : Valuation τ sig (Elt Ideal)) (h0 : W (Proc.devRef .tc main_arg1) = x1) :
    StableHlo.after hostOps0 W (Proc.devRef .tc main_v8) = Cert.ReferenceIdeal.ReadP.val_main_v9 (F := Ideal) x1 := by
  dsimp only [hostOps0]
  after_results
  all_goals (try rw [h0])
  all_goals rfl

/-- Which nodes have a positive in-degree. -/
theorem pre_pos (x1 : (⟨S2x3200000, .i32⟩ : BufTy).Contents (Elt Ideal)) (W : Valuation τ sig (Elt Ideal)) (h0 : W (Proc.devRef .tc main_arg1) = x1) :
    StableHlo.after hostOps0 W (Proc.devRef .tc main_v14) = Cert.ReferenceIdeal.ReadP.val_main_v15 (F := Ideal) x1 := by
  dsimp only [hostOps0]
  after_results
  all_goals (try rw [h0])
  all_goals rfl

/-- The reciprocal square roots of the in-degrees. -/
theorem pre_rsqrt (x1 : (⟨S2x3200000, .i32⟩ : BufTy).Contents (Elt Ideal)) (W : Valuation τ sig (Elt Ideal)) (h0 : W (Proc.devRef .tc main_arg1) = x1) :
    StableHlo.after hostOps0 W (Proc.devRef .tc main_v15) = Cert.ReferenceIdeal.ReadP.val_main_v16 (F := Ideal) x1 := by
  dsimp only [hostOps0]
  after_results
  all_goals (try rw [h0])
  all_goals rfl

/-- The zero the degree-less nodes get. -/
theorem pre_zero  (W : Valuation τ sig (Elt Ideal))  :
    StableHlo.after hostOps0 W (Proc.devRef .tc main_cst_2) = Cert.ReferenceIdeal.ReadP.val_main_cst_2 (F := Ideal) := by
  dsimp only [hostOps0]
  after_results
  all_goals rfl

/-- No operation of the first stretch writes an argument array. -/
theorem pre_keep (W : Valuation τ sig (Elt Ideal)) (b : Ref sig .tc) (hb : b = main_arg0 ∨ b = main_arg2 ∨ b = main_arg3 ∨ b = main_arg4 ∨ b = main_arg5) :
    StableHlo.after hostOps0 W (Proc.devRef .tc b) = W (Proc.devRef .tc b) := by
  dsimp only [hostOps0]
  rcases hb with rfl | rfl | rfl | rfl | rfl <;> after_results

/-- d^(-1/2) where the degree is positive, zero elsewhere. -/
theorem dinv_val (x1 : (⟨S2x3200000, .i32⟩ : BufTy).Contents (Elt Ideal)) (W : Valuation τ sig (Elt Ideal)) (h0 : W (Proc.devRef .tc main_v14) = Cert.ReferenceIdeal.ReadP.val_main_v15 (F := Ideal) x1) (h1 : W (Proc.devRef .tc main_v15) = Cert.ReferenceIdeal.ReadP.val_main_v16 (F := Ideal) x1) (h2 : W (Proc.devRef .tc main_cst_2) = Cert.ReferenceIdeal.ReadP.val_main_cst_2 (F := Ideal)) :
    StableHlo.after hostOps0_1 W (Proc.devRef .tc main_v16) = Cert.ReferenceIdeal.ReadP.val_main_v17 (F := Ideal) x1 := by
  dsimp only [hostOps0_1]
  after_results_simp
  show select (W (Proc.devRef .tc main_v14)) (W (Proc.devRef .tc main_v15))
    (broadcastInDim S100000 ![] bcast_S_S100000 (id (W (Proc.devRef .tc main_cst_2)))) = _
  rw [h0, h1, h2]
  rfl

/-- The second stretch writes neither the edge rows nor an argument array. -/
theorem dinv_keep (W : Valuation τ sig (Elt Ideal)) (b : Ref sig .tc) (hb : b = main_v6 ∨ b = main_v8 ∨ b = main_arg0 ∨ b = main_arg2 ∨ b = main_arg3 ∨ b = main_arg4 ∨ b = main_arg5) :
    StableHlo.after hostOps0_1 W (Proc.devRef .tc b) = W (Proc.devRef .tc b) := by
  dsimp only [hostOps0_1]
  rcases hb with rfl | rfl | rfl | rfl | rfl | rfl | rfl <;> after_results

/-- The edge weights d(row)^(-1/2) · d(col)^(-1/2). -/
theorem norm_val (x1 : (⟨S2x3200000, .i32⟩ : BufTy).Contents (Elt Ideal)) (W : Valuation τ sig (Elt Ideal)) (h0 : W (Proc.devRef .tc main_v6) = Cert.ReferenceIdeal.ReadP.val_main_v7 (F := Ideal) x1) (h1 : W (Proc.devRef .tc main_v8) = Cert.ReferenceIdeal.ReadP.val_main_v9 (F := Ideal) x1) (h2 : W (Proc.devRef .tc main_v16) = Cert.ReferenceIdeal.ReadP.val_main_v17 (F := Ideal) x1) :
    StableHlo.after hostOps0_2 W (Proc.devRef .tc main_v31) = Cert.ReferenceIdeal.ReadP.val_main_v32 (F := Ideal) x1 := by
  dsimp only [hostOps0_2]
  after_results_simp
  all_goals (try rw [h0])
  all_goals (try rw [h1])
  all_goals (try rw [h2])
  all_goals rfl

/-- The third stretch writes neither the edge rows nor an argument array. -/
theorem norm_keep (W : Valuation τ sig (Elt Ideal)) (b : Ref sig .tc) (hb : b = main_v6 ∨ b = main_v8 ∨ b = main_arg0 ∨ b = main_arg2 ∨ b = main_arg3 ∨ b = main_arg4 ∨ b = main_arg5) :
    StableHlo.after hostOps0_2 W (Proc.devRef .tc b) = W (Proc.devRef .tc b) := by
  dsimp only [hostOps0_2]
  rcases hb with rfl | rfl | rfl | rfl | rfl | rfl | rfl <;> after_results

end Cert.KernelIdeal.Glue

end
-- ==== Proof.Glue2.lean ====
/-
  The host operations between the two dense products, read as values.

  Between the first and the second region the program gathers the first product's rows at the edges' source nodes, scales
  each by its edge weight, scatter-sums them at the target nodes, adds the first bias and rectifies. Read over ANY memory
  whose buffers hold the first product, the two edge rows, the edge weights and the bias, the stretch leaves the
  reference's rectified first layer; it writes neither the edge rows, nor the edge weights, nor an argument array.
-/
import proofs.«159831_j67430986547796_1_alg».proof.Proof.Gen.KernelIdeal.Frame
import proofs.«159831_j67430986547796_1_alg».proof.Proof.RefRead

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo Idealize.ShloMosaic.ValueIdx
/-- The aggregated first layer plus its bias. -/
theorem layer1_val (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (W : Valuation τ sig (Elt Ideal)) (h0 : W (Proc.devRef .tc main_v32) = Cert.ReferenceIdeal.ReadP.val_main_v5 (F := Ideal) x0 x2) (h1 : W (Proc.devRef .tc main_v6) = Cert.ReferenceIdeal.ReadP.val_main_v7 (F := Ideal) x1) (h2 : W (Proc.devRef .tc main_v8) = Cert.ReferenceIdeal.ReadP.val_main_v9 (F := Ideal) x1) (h3 : W (Proc.devRef .tc main_v31) = Cert.ReferenceIdeal.ReadP.val_main_v32 (F := Ideal) x1) (h4 : W (Proc.devRef .tc main_arg3) = x3) :
    StableHlo.after hostOps1 W (Proc.devRef .tc main_v48) = Cert.ReferenceIdeal.ReadP.val_main_v48 (F := Ideal) x0 x1 x2 x3 := by
  dsimp only [hostOps1]
  after_results_simp
  all_goals (try rw [h0])
  all_goals (try rw [h1])
  all_goals (try rw [h2])
  all_goals (try rw [h3])
  all_goals (try rw [h4])
  all_goals rfl

/-- The stretch leaves the edge rows, the edge weights and the later arguments alone. -/
theorem layer1_keep (W : Valuation τ sig (Elt Ideal)) (b : Ref sig .tc) (hb : b = main_v6 ∨ b = main_v8 ∨ b = main_v31 ∨ b = main_arg4 ∨ b = main_arg5) :
    StableHlo.after hostOps1 W (Proc.devRef .tc b) = W (Proc.devRef .tc b) := by
  dsimp only [hostOps1]
  rcases hb with rfl | rfl | rfl | rfl | rfl <;> after_results

/-- The rectified first layer. -/
theorem relu_val (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (W : Valuation τ sig (Elt Ideal)) (h0 : W (Proc.devRef .tc main_v48) = Cert.ReferenceIdeal.ReadP.val_main_v48 (F := Ideal) x0 x1 x2 x3) :
    StableHlo.after hostOps1_1 W (Proc.devRef .tc main_v49) = Cert.ReferenceIdeal.ReadP.val_main_v49 (F := Ideal) x0 x1 x2 x3 := by
  dsimp only [hostOps1_1]
  after_results_simp
  show maximumf (W (Proc.devRef .tc main_v48))
    (broadcastInDim S100000x16 ![] bcast_S_S100000x16 (constant (F := Ideal) S_ .f32 0x00000000#32)) = _
  rw [h0]
  rfl

/-- The rectifier leaves the edge rows, the edge weights and the later arguments alone. -/
theorem relu_keep (W : Valuation τ sig (Elt Ideal)) (b : Ref sig .tc) (hb : b = main_v6 ∨ b = main_v8 ∨ b = main_v31 ∨ b = main_arg4 ∨ b = main_arg5) :
    StableHlo.after hostOps1_1 W (Proc.devRef .tc b) = W (Proc.devRef .tc b) := by
  dsimp only [hostOps1_1]
  rcases hb with rfl | rfl | rfl | rfl | rfl <;> after_results

end Cert.KernelIdeal.Glue

end
-- ==== Proof.Glue3.lean ====
/-
  The host operations between the second dense product and the last region, read as values.

  The program gathers the second product's rows at the edges' source nodes, scales each by its edge weight, scatter-sums
  them at the target nodes, and recasts the second bias as a one-row matrix. Read over ANY memory whose buffers hold the
  second product, the two edge rows and the edge weights, the stretch leaves the reference's aggregated second layer;
  and entry (0, k) of the recast bias is bias entry k.
-/
import proofs.«159831_j67430986547796_1_alg».proof.Proof.Gen.KernelIdeal.Frame
import proofs.«159831_j67430986547796_1_alg».proof.Proof.RefRead
import Idealize.ShloMosaic.Lib.Pipeline.Value
import Idealize.ShloMosaic.Lib.ValueIdx

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo Idealize.ShloMosaic.ValueIdx
/-- The aggregated second layer. -/
theorem layer2_val (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x10, .f32⟩ : BufTy).Contents (Elt Ideal)) (W : Valuation τ sig (Elt Ideal)) (h0 : W (Proc.devRef .tc main_v50) = Cert.ReferenceIdeal.ReadP.val_main_v50 (F := Ideal) x0 x1 x2 x3 x4) (h1 : W (Proc.devRef .tc main_v6) = Cert.ReferenceIdeal.ReadP.val_main_v52 (F := Ideal) x1) (h2 : W (Proc.devRef .tc main_v8) = Cert.ReferenceIdeal.ReadP.val_main_v54 (F := Ideal) x1) (h3 : W (Proc.devRef .tc main_v31) = Cert.ReferenceIdeal.ReadP.val_main_v77 (F := Ideal) x1) :
    StableHlo.after hostOps2 W (Proc.devRef .tc main_v63) = Cert.ReferenceIdeal.ReadP.val_main_v90 (F := Ideal) x0 x1 x2 x3 x4 := by
  dsimp only [hostOps2]
  after_results_simp
  all_goals (try rw [h0])
  all_goals (try rw [h1])
  all_goals (try rw [h2])
  all_goals (try rw [h3])
  all_goals rfl

/-- Entry (0, k) of the bias recast as a one-row matrix is bias entry k. -/
theorem bias_row (W : Valuation τ sig (Elt Ideal)) (k : Fin 10) :
    StableHlo.after hostOps2 W (Proc.devRef .tc main_v64) (ix2 (0 : Fin 1) k) = W (Proc.devRef .tc main_arg5) (ix1 k) := by
  dsimp only [hostOps2]
  after_results
  show shapeCast S1x10 (W (Proc.devRef .tc main_arg5)) shapeCasts_S10_S1x10 (ix2 (0 : Fin 1) k) = _
  refine (shapeCast_addUnit_apply ![10] (W (Proc.devRef .tc main_arg5)) shapeCasts_S10_S1x10 (ix2 (0 : Fin 1) k)).trans ?_
  exact congrArg (W (Proc.devRef .tc main_arg5)) (funext fun a => by
    match a with
    | ⟨0, _⟩ => rfl)

end Cert.KernelIdeal.Glue

end
-- ==== Proof.RefTwice.lean ====
/-
  The reference computes the edge rows and the edge weights twice; the second reading is the first.

  The reference's two graph-convolution layers each split the extended edge list into its source row and target row,
  count the in-degrees, take d^(-1/2) where positive, wrap and gather, and multiply the two factors per edge. These are
  the same operations of the same edge list, so every stage of the second reading equals the stage of the first. The
  kernel computes them once and uses them for both layers.
-/
import proofs.«159831_j67430986547796_1_alg».proof.Proof.RefRead

noncomputable section

namespace Cert.ReferenceIdeal.Twice

open Cert.ReferenceIdeal Cert.ReferenceIdeal.Gen Idealize.ShloMosaic Idealize.ShloMosaic.TcCoe Idealize.SL.Sem
open Cert.ReferenceIdeal.ReadP

variable (x1 : (⟨S2x3200000, .i32⟩ : BufTy).Contents (Elt Ideal))

/-- The source row. -/
theorem row_eq : val_main_v52 (F := Ideal) x1 = val_main_v7 (F := Ideal) x1 := rfl
/-- The target row. -/
theorem col_eq : val_main_v54 (F := Ideal) x1 = val_main_v9 (F := Ideal) x1 := rfl
/-- The in-degrees. -/
theorem deg_eq : val_main_v58 (F := Ideal) x1 = val_main_v13 (F := Ideal) x1 := by
  unfold val_main_v58 val_main_v13 val_main_v57 val_main_v12
  rw [col_eq]
  rfl
/-- d^(-1/2) where the degree is positive, zero elsewhere. -/
theorem dinv_eq : val_main_v62 (F := Ideal) x1 = val_main_v17 (F := Ideal) x1 := by
  unfold val_main_v62 val_main_v17 val_main_v60 val_main_v15 val_main_v61 val_main_v16
  rw [deg_eq]
  rfl
/-- The wrapped source indices. -/
theorem src_eq : val_main_v67 (F := Ideal) x1 = val_main_v22 (F := Ideal) x1 := by
  unfold val_main_v67 val_main_v22 val_main_v64 val_main_v19 val_main_v66 val_main_v21
  rw [row_eq]
  rfl
/-- The wrapped target indices. -/
theorem tgt_eq : val_main_v74 (F := Ideal) x1 = val_main_v29 (F := Ideal) x1 := by
  unfold val_main_v74 val_main_v29 val_main_v71 val_main_v26 val_main_v73 val_main_v28
  rw [col_eq]
  rfl
/-- The factor gathered at the source nodes. -/
theorem gsrc_eq : val_main_v69 (F := Ideal) x1 = val_main_v24 (F := Ideal) x1 := by
  unfold val_main_v69 val_main_v24 val_main_v68 val_main_v23
  rw [dinv_eq, src_eq]
/-- The factor gathered at the target nodes. -/
theorem gtgt_eq : val_main_v76 (F := Ideal) x1 = val_main_v31 (F := Ideal) x1 := by
  unfold val_main_v76 val_main_v31 val_main_v75 val_main_v30
  rw [dinv_eq, tgt_eq]
/-- The edge weights. -/
theorem norm_eq : val_main_v77 (F := Ideal) x1 = val_main_v32 (F := Ideal) x1 := by
  unfold val_main_v77 val_main_v32
  rw [gsrc_eq, gtgt_eq]

end Cert.ReferenceIdeal.Twice

end
-- ==== Proof.Bridge.lean ====
/-
  From the launch memory to the result: every boundary of the kernel's program holds a stage of the reference.

  The kernel's program is: host operations (the extended edge list, the edge weights), the first dense product, host
  operations (the first aggregation, the bias, the rectifier), the second dense product, host operations (the second
  aggregation), the bias-plus-log-softmax region. Reading each stretch over the memory the previous one left, and each
  region as one whole-array function of its operand arrays, the buffers at the boundaries hold, in order: the edge rows
  and the edge weights; x·W₁; the rectified first layer; its product with W₂; the aggregated second layer; and last
  the log-softmax of its rows plus the bias — each the reference's own stage of the same six argument arrays. The
  reference computes the edge rows and weights a second time for its second layer; those are the first ones.
-/
import proofs.«159831_j67430986547796_1_alg».proof.Proof.KernelRun
import proofs.«159831_j67430986547796_1_alg».proof.Proof.Dense1
import proofs.«159831_j67430986547796_1_alg».proof.Proof.Dense2
import proofs.«159831_j67430986547796_1_alg».proof.Proof.LogSoftmax
import proofs.«159831_j67430986547796_1_alg».proof.Proof.Glue1
import proofs.«159831_j67430986547796_1_alg».proof.Proof.Glue2
import proofs.«159831_j67430986547796_1_alg».proof.Proof.Glue3
import proofs.«159831_j67430986547796_1_alg».proof.Proof.RefTwice

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## At the first region's entry -/

theorem e1_arg (b : Ref sig .tc) (hb : b = main_arg0 ∨ b = main_arg2 ∨ b = main_arg3 ∨ b = main_arg4 ∨ b = main_arg5) :
    W3 m ρ c (Proc.devRef .tc b) = m ((c.tc : Thread nD τ).loc b) :=
  (Glue.norm_keep (W2 m ρ c) b (Or.inr (Or.inr hb))).trans
    ((Glue.dinv_keep (W1 m ρ c) b (Or.inr (Or.inr hb))).trans ((Glue.pre_keep (W0 m ρ c) b hb).trans rfl))

theorem e1_row : W3 m ρ c (Proc.devRef .tc main_v6) = Cert.ReferenceIdeal.ReadP.val_main_v7 (F := Ideal) (m ((c.tc : Thread nD τ).loc main_arg1)) :=
  (Glue.norm_keep (W2 m ρ c) main_v6 (Or.inl rfl)).trans
    ((Glue.dinv_keep (W1 m ρ c) main_v6 (Or.inl rfl)).trans (Glue.pre_row _ (W0 m ρ c) rfl))

theorem e1_col : W3 m ρ c (Proc.devRef .tc main_v8) = Cert.ReferenceIdeal.ReadP.val_main_v9 (F := Ideal) (m ((c.tc : Thread nD τ).loc main_arg1)) :=
  (Glue.norm_keep (W2 m ρ c) main_v8 (Or.inr (Or.inl rfl))).trans
    ((Glue.dinv_keep (W1 m ρ c) main_v8 (Or.inr (Or.inl rfl))).trans (Glue.pre_col _ (W0 m ρ c) rfl))

theorem e1_norm : W3 m ρ c (Proc.devRef .tc main_v31) = Cert.ReferenceIdeal.ReadP.val_main_v32 (F := Ideal) (m ((c.tc : Thread nD τ).loc main_arg1)) :=
  Glue.norm_val _ (W2 m ρ c)
    ((Glue.dinv_keep (W1 m ρ c) main_v6 (Or.inl rfl)).trans (Glue.pre_row _ (W0 m ρ c) rfl))
    ((Glue.dinv_keep (W1 m ρ c) main_v8 (Or.inr (Or.inl rfl))).trans (Glue.pre_col _ (W0 m ρ c) rfl))
    (Glue.dinv_val _ (W1 m ρ c) (Glue.pre_pos _ (W0 m ρ c) rfl) (Glue.pre_rsqrt _ (W0 m ρ c) rfl) (Glue.pre_zero (W0 m ρ c)))

/-! ## After the first region -/

/-- The first region leaves x·W₁. -/
theorem x1_prod : W4 m ρ c (Proc.devRef .tc main_v32) = Cert.ReferenceIdeal.ReadP.val_main_v5 (F := Ideal) (m ((c.tc : Thread nD τ).loc main_arg0)) (m ((c.tc : Thread nD τ).loc main_arg2)) :=
  (W4_arr m ρ c 2).trans ((Dense1.final (V3 m ρ) c).trans
    (congrArg₂ (fun a b => Cert.ReferenceIdeal.ReadP.val_main_v5 (F := Ideal) a b) (e1_arg m ρ c main_arg0 (Or.inl rfl)) (e1_arg m ρ c main_arg2 (Or.inr (Or.inl rfl)))))

theorem x1_keep (b : Ref sig .tc) (hb : b = main_v6 ∨ b = main_v8 ∨ b = main_v31 ∨ b = main_arg3 ∨ b = main_arg4 ∨ b = main_arg5) :
    W4 m ρ c (Proc.devRef .tc b) = W3 m ρ c (Proc.devRef .tc b) :=
  W4_of_ne m ρ c b (by rcases hb with rfl | rfl | rfl | rfl | rfl | rfl <;> decide)

/-! ## At the second region's entry -/

theorem e2_hidden : W6 m ρ c (Proc.devRef .tc main_v49) = Cert.ReferenceIdeal.ReadP.val_main_v49 (F := Ideal) (m ((c.tc : Thread nD τ).loc main_arg0)) (m ((c.tc : Thread nD τ).loc main_arg1)) (m ((c.tc : Thread nD τ).loc main_arg2)) (m ((c.tc : Thread nD τ).loc main_arg3)) :=
  Glue.relu_val _ _ _ _ (W5 m ρ c) (Glue.layer1_val _ _ _ _ (W4 m ρ c) (x1_prod m ρ c)
    ((x1_keep m ρ c main_v6 (Or.inl rfl)).trans (e1_row m ρ c))
    ((x1_keep m ρ c main_v8 (Or.inr (Or.inl rfl))).trans (e1_col m ρ c))
    ((x1_keep m ρ c main_v31 (Or.inr (Or.inr (Or.inl rfl)))).trans (e1_norm m ρ c))
    ((x1_keep m ρ c main_arg3 (Or.inr (Or.inr (Or.inr (Or.inl rfl))))).trans (e1_arg m ρ c main_arg3 (Or.inr (Or.inr (Or.inl rfl))))))

theorem e2_keep (b : Ref sig .tc) (hb : b = main_v6 ∨ b = main_v8 ∨ b = main_v31 ∨ b = main_arg4 ∨ b = main_arg5) :
    W6 m ρ c (Proc.devRef .tc b) = W4 m ρ c (Proc.devRef .tc b) :=
  (Glue.relu_keep (W5 m ρ c) b hb).trans (Glue.layer1_keep (W4 m ρ c) b hb)

theorem e2_w2 : W6 m ρ c (Proc.devRef .tc main_arg4) = (m ((c.tc : Thread nD τ).loc main_arg4)) :=
  (e2_keep m ρ c main_arg4 (Or.inr (Or.inr (Or.inr (Or.inl rfl))))).trans
    ((x1_keep m ρ c main_arg4 (Or.inr (Or.inr (Or.inr (Or.inr (Or.inl rfl)))))).trans (e1_arg m ρ c main_arg4 (Or.inr (Or.inr (Or.inr (Or.inl rfl))))))

/-! ## After the second region -/

/-- The reference's second product at (R, j): the sum over k of the rectified first layer (R, k) · W₂ (k, j). -/
theorem dot2_entry (R : Fin 100000) (j : Fin 10) :
    Cert.ReferenceIdeal.ReadP.val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 R j)
      = ∑ k : Fin 16, Cert.ReferenceIdeal.ReadP.val_main_v49 (F := Ideal) (m ((c.tc : Thread nD τ).loc main_arg0)) (m ((c.tc : Thread nD τ).loc main_arg1)) (m ((c.tc : Thread nD τ).loc main_arg2)) (m ((c.tc : Thread nD τ).loc main_arg3)) (ix2 R k) * (m ((c.tc : Thread nD τ).loc main_arg4)) (ix2 k j) := by
  rw [Cert.ReferenceIdeal.ReadP.val_main_v50_apply]
  generalize Cert.ReferenceIdeal.ReadP.val_main_v49 (F := Ideal) (m ((c.tc : Thread nD τ).loc main_arg0)) (m ((c.tc : Thread nD τ).loc main_arg1)) (m ((c.tc : Thread nD τ).loc main_arg2)) (m ((c.tc : Thread nD τ).loc main_arg3)) = H
  refine Finset.sum_congr rfl fun k _ => ?_
  have e1 : Cert.ReferenceIdeal.ReadP.lidx_main_v50 (ix2 R j) k = ix2 R k := funext fun a => by
    match a with
    | ⟨0, _⟩ => rfl
    | ⟨1, _⟩ => rfl
  have e2 : Cert.ReferenceIdeal.ReadP.ridx_main_v50 (ix2 R j) k = ix2 k j := funext fun a => by
    match a with
    | ⟨0, _⟩ => rfl
    | ⟨1, _⟩ => rfl
  rw [e1, e2]

/-- The second region leaves the rectified first layer times W₂. -/
theorem x2_prod : W7 m ρ c (Proc.devRef .tc main_v50) = Cert.ReferenceIdeal.ReadP.val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W7_arr m ρ c 2).trans (Dense2.final (V6 m ρ) c _ fun R j => (dot2_entry m c R j).trans
    (Finset.sum_congr rfl fun k _ => congrArg₂ (fun a b : EReal => a * b)
      (congrFun (e2_hidden m ρ c).symm _) (congrFun (e2_w2 m ρ c).symm _)))

theorem x2_keep (b : Ref sig .tc) (hb : b = main_v6 ∨ b = main_v8 ∨ b = main_v31 ∨ b = main_arg5) :
    W7 m ρ c (Proc.devRef .tc b) = W6 m ρ c (Proc.devRef .tc b) :=
  W7_of_ne m ρ c b (by rcases hb with rfl | rfl | rfl | rfl <;> decide)

/-! ## At the last region's entry -/

theorem e3_row : W7 m ρ c (Proc.devRef .tc main_v6) = Cert.ReferenceIdeal.ReadP.val_main_v52 (F := Ideal) (m ((c.tc : Thread nD τ).loc main_arg1)) :=
  (x2_keep m ρ c main_v6 (Or.inl rfl)).trans ((e2_keep m ρ c main_v6 (Or.inl rfl)).trans
    ((x1_keep m ρ c main_v6 (Or.inl rfl)).trans ((e1_row m ρ c).trans (Cert.ReferenceIdeal.Twice.row_eq _).symm)))

theorem e3_col : W7 m ρ c (Proc.devRef .tc main_v8) = Cert.ReferenceIdeal.ReadP.val_main_v54 (F := Ideal) (m ((c.tc : Thread nD τ).loc main_arg1)) :=
  (x2_keep m ρ c main_v8 (Or.inr (Or.inl rfl))).trans ((e2_keep m ρ c main_v8 (Or.inr (Or.inl rfl))).trans
    ((x1_keep m ρ c main_v8 (Or.inr (Or.inl rfl))).trans ((e1_col m ρ c).trans (Cert.ReferenceIdeal.Twice.col_eq _).symm)))

theorem e3_norm : W7 m ρ c (Proc.devRef .tc main_v31) = Cert.ReferenceIdeal.ReadP.val_main_v77 (F := Ideal) (m ((c.tc : Thread nD τ).loc main_arg1)) :=
  (x2_keep m ρ c main_v31 (Or.inr (Or.inr (Or.inl rfl)))).trans ((e2_keep m ρ c main_v31 (Or.inr (Or.inr (Or.inl rfl)))).trans
    ((x1_keep m ρ c main_v31 (Or.inr (Or.inr (Or.inl rfl)))).trans ((e1_norm m ρ c).trans (Cert.ReferenceIdeal.Twice.norm_eq _).symm)))

theorem e3_bias : W7 m ρ c (Proc.devRef .tc main_arg5) = (m ((c.tc : Thread nD τ).loc main_arg5)) :=
  (x2_keep m ρ c main_arg5 (Or.inr (Or.inr (Or.inr rfl)))).trans ((e2_keep m ρ c main_arg5 (Or.inr (Or.inr (Or.inr (Or.inr rfl))))).trans
    ((x1_keep m ρ c main_arg5 (Or.inr (Or.inr (Or.inr (Or.inr (Or.inr rfl)))))).trans (e1_arg m ρ c main_arg5 (Or.inr (Or.inr (Or.inr (Or.inr rfl)))))))

theorem e3_agg : W8 m ρ c (Proc.devRef .tc main_v63) = Cert.ReferenceIdeal.ReadP.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  Glue.layer2_val _ _ _ _ _ (W7 m ρ c) (x2_prod m ρ c) (e3_row m ρ c) (e3_col m ρ c) (e3_norm m ρ c)

theorem e3_biasrow (k : Fin 10) : W8 m ρ c (Proc.devRef .tc main_v64) (ix2 (0 : Fin 1) k) = (m ((c.tc : Thread nD τ).loc main_arg5)) (ix1 k) :=
  (Glue.bias_row (W7 m ρ c) k).trans (congrFun (e3_bias m ρ c) _)

/-! ## The result -/

/-- The result buffer ends at the reference's last stage of the six argument arrays. -/
theorem result : W9 m ρ c (Proc.devRef .tc main_v65) = Cert.ReferenceIdeal.ReadP.val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W9_arr m ρ c 2).trans (LogSoftmax.final (V8 m ρ) c _ fun R j =>
    (LogSoftmax.ref_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) R j).trans
      (congrArg (fun row => Softmax.lsm _ row j) (funext fun k => congrArg₂ (fun a b : EReal => a + b)
        (congrFun (e3_agg m ρ c).symm _) (e3_biasrow m ρ c k).symm)))

end Cert.KernelIdeal.Bridge

end
-- ==== Proof.RefRun.lean ====
/-
  The reference's run, with its result read stage by stage.

  The reference is one straight line of host operations, cut here into consecutive stretches: (1) the edge list with
  one self loop per node appended, the first dense product x·W₁, each node's in-degree, its positivity and its
  reciprocal square root; (2) d^(-1/2) where positive and zero elsewhere, and the edge weights
  d(row)^(-1/2)·d(col)^(-1/2); (3) the first aggregation — gather the product's rows at the source nodes, scale by the
  edge weights, scatter-sum at the target nodes —, the bias and the rectifier; (4) the second dense product, the edge
  rows and the degrees once more; (5) the edge weights once more; (6) the second aggregation and the bias; and the
  log-softmax in three steps: (7) each row's maximum, (8) the rows with their maximum subtracted, (9) the logarithm of
  each row's sum of exponentials, subtracted. Every weakly fair execution terminates and each buffer ends at the fold of
  the operations over the launch memory. That fold is read one stretch at a time: a stretch applied to ANY memory whose
  buffers hold the earlier stages leaves the later stages in the buffers it writes and leaves every other buffer alone.
  So the result buffer ends at the last stage of the six argument arrays, and the argument arrays end unchanged.
-/
import proofs.«159831_j67430986547796_1_alg».proof.Proof.Gen.ReferenceIdeal
import proofs.«159831_j67430986547796_1_alg».proof.Proof.RefRead
import Idealize.ShloMosaic.Lib.StableHlo.Run

set_option maxRecDepth 131072

noncomputable section

namespace Cert.ReferenceIdeal.Ran

open Cert.ReferenceIdeal Cert.ReferenceIdeal.Gen Idealize.ShloMosaic Idealize.ShloMosaic.TcCoe Idealize.SL.Sem Idealize.ShloMosaic.StableHlo
open Cert.ReferenceIdeal.ReadP

section Program
variable {F : FTy → Type} [FloatOps F]

/-- Stretch 1 of 9. -/
abbrev ops1 : List (HloOp τ sig (Elt F)) :=
  [ nullary main_v0 (iotaInDim S100000 32 0),
    unary main_v0 main_v1 (broadcastInDim S1x100000 ![1] bcast_S100000_S1x100000_1 : (⟨S100000, .i32⟩ : BufTy).Contents (Elt F) → (⟨S1x100000, .i32⟩ : BufTy).Contents (Elt F)),
    unary main_v0 main_v2 (broadcastInDim S1x100000 ![1] bcast_S100000_S1x100000_1 : (⟨S100000, .i32⟩ : BufTy).Contents (Elt F) → (⟨S1x100000, .i32⟩ : BufTy).Contents (Elt F)),
    binary main_v1 main_v2 main_v3 ((fun a b => concatenate S2x100000 0 [⟨S1x100000, a⟩, ⟨S1x100000, b⟩] concatenates_S1x100000_S1x100000_S2x100000_d0) : (⟨S1x100000, .i32⟩ : BufTy).Contents (Elt F) → (⟨S1x100000, .i32⟩ : BufTy).Contents (Elt F) → (⟨S2x100000, .i32⟩ : BufTy).Contents (Elt F)),
    binary main_arg1 main_v3 main_v4 ((fun a b => concatenate S2x3300000 1 [⟨S2x3200000, a⟩, ⟨S2x100000, b⟩] concatenates_S2x3200000_S2x100000_S2x3300000_d1) : (⟨S2x3200000, .i32⟩ : BufTy).Contents (Elt F) → (⟨S2x100000, .i32⟩ : BufTy).Contents (Elt F) → (⟨S2x3300000, .i32⟩ : BufTy).Contents (Elt F)),
    binary main_arg0 main_arg2 main_v5 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_v4 main_v6 ((extractStridedSlice S1x3300000 ![0, 0] · slices_S2x3300000_S1x3300000_0_0) : (⟨S2x3300000, .i32⟩ : BufTy).Contents (Elt F) → (⟨S1x3300000, .i32⟩ : BufTy).Contents (Elt F)),
    reshape main_v6 main_v7 rfl shapeCasts_S1x3300000_S3300000,
    unary main_v4 main_v8 ((extractStridedSlice S1x3300000 ![1, 0] · slices_S2x3300000_S1x3300000_1_0) : (⟨S2x3300000, .i32⟩ : BufTy).Contents (Elt F) → (⟨S1x3300000, .i32⟩ : BufTy).Contents (Elt F)),
    reshape main_v8 main_v9 rfl shapeCasts_S1x3300000_S3300000,
    nullary main_cst (constant S_ .f32 0x3F800000#32),
    unary main_cst main_v10 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v11 (broadcastInDim S100000 ![] bcast_S_S100000 : (⟨S_, .f32⟩ : BufTy).Contents (Elt F) → (⟨S100000, .f32⟩ : BufTy).Contents (Elt F)),
    unary main_v9 main_v12 (broadcastInDim S3300000x1 ![0] bcast_S3300000_S3300000x1_0 : (⟨S3300000, .i32⟩ : BufTy).Contents (Elt F) → (⟨S3300000x1, .i32⟩ : BufTy).Contents (Elt F)),
    ternary main_v11 main_v12 main_v10 main_v13 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v14 (broadcastInDim S100000 ![] bcast_S_S100000 : (⟨S_, .f32⟩ : BufTy).Contents (Elt F) → (⟨S100000, .f32⟩ : BufTy).Contents (Elt F)),
    binary main_v13 main_v14 main_v15 (cmpf .ogt : (⟨S100000, .f32⟩ : BufTy).Contents (Elt F) → (⟨S100000, .f32⟩ : BufTy).Contents (Elt F) → (⟨S100000, .i1⟩ : BufTy).Contents (Elt F)),
    unary main_v13 main_v16 (Host.rsqrt : (⟨S100000, .f32⟩ : BufTy).Contents (Elt F) → (⟨S100000, .f32⟩ : BufTy).Contents (Elt F)),
    nullary main_cst_2 (constant S_ .f32 0x00000000#32) ]

/-- Stretch 2 of 9. -/
abbrev ops2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v15) (TRef.of (T := ⟨S100000, .f32⟩) main_v16) (TRef.of (T := ⟨S100000, .f32⟩) main_call0_v1) (TRef.of (T := ⟨S100000, .f32⟩) main_v17) select,
    nullary main_c (constantI S_ 32 0#32),
    unary main_c main_v18 (broadcastInDim S3300000 ![] bcast_S_S3300000 : (⟨S_, .i32⟩ : BufTy).Contents (Elt F) → (⟨S3300000, .i32⟩ : BufTy).Contents (Elt F)),
    binary main_v7 main_v18 main_v19 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v20 (broadcastInDim S3300000 ![] bcast_S_S3300000 : (⟨S_, .i32⟩ : BufTy).Contents (Elt F) → (⟨S3300000, .i32⟩ : BufTy).Contents (Elt F)),
    binary main_v7 main_v20 main_v21 (addi : (⟨S3300000, .i32⟩ : BufTy).Contents (Elt F) → (⟨S3300000, .i32⟩ : BufTy).Contents (Elt F) → (⟨S3300000, .i32⟩ : BufTy).Contents (Elt F)),
    ternary main_v19 main_v21 main_v7 main_v22 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v22 main_v23 (broadcastInDim S3300000x1 ![0] bcast_S3300000_S3300000x1_0 : (⟨S3300000, .i32⟩ : BufTy).Contents (Elt F) → (⟨S3300000x1, .i32⟩ : BufTy).Contents (Elt F)),
    binary main_v17 main_v23 main_v24 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v25 (broadcastInDim S3300000 ![] bcast_S_S3300000 : (⟨S_, .i32⟩ : BufTy).Contents (Elt F) → (⟨S3300000, .i32⟩ : BufTy).Contents (Elt F)),
    binary main_v9 main_v25 main_v26 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v27 (broadcastInDim S3300000 ![] bcast_S_S3300000 : (⟨S_, .i32⟩ : BufTy).Contents (Elt F) → (⟨S3300000, .i32⟩ : BufTy).Contents (Elt F)),
    binary main_v9 main_v27 main_v28 (addi : (⟨S3300000, .i32⟩ : BufTy).Contents (Elt F) → (⟨S3300000, .i32⟩ : BufTy).Contents (Elt F) → (⟨S3300000, .i32⟩ : BufTy).Contents (Elt F)),
    ternary main_v26 main_v28 main_v9 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v29 main_v30 (broadcastInDim S3300000x1 ![0] bcast_S3300000_S3300000x1_0 : (⟨S3300000, .i32⟩ : BufTy).Contents (Elt F) → (⟨S3300000x1, .i32⟩ : BufTy).Contents (Elt F)),
    binary main_v17 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v31 main_v32 (mulf : (⟨S3300000, .f32⟩ : BufTy).Contents (Elt F) → (⟨S3300000, .f32⟩ : BufTy).Contents (Elt F) → (⟨S3300000, .f32⟩ : BufTy).Contents (Elt F)) ]

/-- Stretch 3 of 9. -/
abbrev ops3 : List (HloOp τ sig (Elt F)) :=
  [ nullary main_c_6 (constantI S_ 32 0#32),
    unary main_c_6 main_v33 (broadcastInDim S3300000 ![] bcast_S_S3300000 : (⟨S_, .i32⟩ : BufTy).Contents (Elt F) → (⟨S3300000, .i32⟩ : BufTy).Contents (Elt F)),
    binary main_v7 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v35 (broadcastInDim S3300000 ![] bcast_S_S3300000 : (⟨S_, .i32⟩ : BufTy).Contents (Elt F) → (⟨S3300000, .i32⟩ : BufTy).Contents (Elt F)),
    binary main_v7 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v7 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v5 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v32 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v9 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf ]

/-- Stretch 4 of 9. -/
abbrev ops4 : List (HloOp τ sig (Elt F)) :=
  [ binary main_v49 main_arg4 main_v50 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)),
    unary main_v4 main_v51 ((extractStridedSlice S1x3300000 ![0, 0] · slices_S2x3300000_S1x3300000_0_0) : (⟨S2x3300000, .i32⟩ : BufTy).Contents (Elt F) → (⟨S1x3300000, .i32⟩ : BufTy).Contents (Elt F)),
    reshape main_v51 main_v52 rfl shapeCasts_S1x3300000_S3300000,
    unary main_v4 main_v53 ((extractStridedSlice S1x3300000 ![1, 0] · slices_S2x3300000_S1x3300000_1_0) : (⟨S2x3300000, .i32⟩ : BufTy).Contents (Elt F) → (⟨S1x3300000, .i32⟩ : BufTy).Contents (Elt F)),
    reshape main_v53 main_v54 rfl shapeCasts_S1x3300000_S3300000,
    nullary main_cst_9 (constant S_ .f32 0x3F800000#32),
    unary main_cst_9 main_v55 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v54 main_v57 (broadcastInDim S3300000x1 ![0] bcast_S3300000_S3300000x1_0 : (⟨S3300000, .i32⟩ : BufTy).Contents (Elt F) → (⟨S3300000x1, .i32⟩ : BufTy).Contents (Elt F)),
    ternary main_v56 main_v57 main_v55 main_v58 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select ]

/-- Stretch 5 of 9. -/
abbrev ops5 : List (HloOp τ sig (Elt F)) :=
  [ nullary main_c_13 (constantI S_ 32 0#32),
    unary main_c_13 main_v63 (broadcastInDim S3300000 ![] bcast_S_S3300000 : (⟨S_, .i32⟩ : BufTy).Contents (Elt F) → (⟨S3300000, .i32⟩ : BufTy).Contents (Elt F)),
    binary main_v52 main_v63 main_v64 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v65 (broadcastInDim S3300000 ![] bcast_S_S3300000 : (⟨S_, .i32⟩ : BufTy).Contents (Elt F) → (⟨S3300000, .i32⟩ : BufTy).Contents (Elt F)),
    binary main_v52 main_v65 main_v66 (addi : (⟨S3300000, .i32⟩ : BufTy).Contents (Elt F) → (⟨S3300000, .i32⟩ : BufTy).Contents (Elt F) → (⟨S3300000, .i32⟩ : BufTy).Contents (Elt F)),
    ternary main_v64 main_v66 main_v52 main_v67 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v67 main_v68 (broadcastInDim S3300000x1 ![0] bcast_S3300000_S3300000x1_0 : (⟨S3300000, .i32⟩ : BufTy).Contents (Elt F) → (⟨S3300000x1, .i32⟩ : BufTy).Contents (Elt F)),
    binary main_v62 main_v68 main_v69 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v70 (broadcastInDim S3300000 ![] bcast_S_S3300000 : (⟨S_, .i32⟩ : BufTy).Contents (Elt F) → (⟨S3300000, .i32⟩ : BufTy).Contents (Elt F)),
    binary main_v54 main_v70 main_v71 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v72 (broadcastInDim S3300000 ![] bcast_S_S3300000 : (⟨S_, .i32⟩ : BufTy).Contents (Elt F) → (⟨S3300000, .i32⟩ : BufTy).Contents (Elt F)),
    binary main_v54 main_v72 main_v73 (addi : (⟨S3300000, .i32⟩ : BufTy).Contents (Elt F) → (⟨S3300000, .i32⟩ : BufTy).Contents (Elt F) → (⟨S3300000, .i32⟩ : BufTy).Contents (Elt F)),
    ternary main_v71 main_v73 main_v54 main_v74 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v74 main_v75 (broadcastInDim S3300000x1 ![0] bcast_S3300000_S3300000x1_0 : (⟨S3300000, .i32⟩ : BufTy).Contents (Elt F) → (⟨S3300000x1, .i32⟩ : BufTy).Contents (Elt F)),
    binary main_v62 main_v75 main_v76 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v69 main_v76 main_v77 (mulf : (⟨S3300000, .f32⟩ : BufTy).Contents (Elt F) → (⟨S3300000, .f32⟩ : BufTy).Contents (Elt F) → (⟨S3300000, .f32⟩ : BufTy).Contents (Elt F)) ]

/-- Stretch 6 of 9. -/
abbrev ops6 : List (HloOp τ sig (Elt F)) :=
  [ nullary main_c_17 (constantI S_ 32 0#32),
    unary main_c_17 main_v78 (broadcastInDim S3300000 ![] bcast_S_S3300000 : (⟨S_, .i32⟩ : BufTy).Contents (Elt F) → (⟨S3300000, .i32⟩ : BufTy).Contents (Elt F)),
    binary main_v52 main_v78 main_v79 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v80 (broadcastInDim S3300000 ![] bcast_S_S3300000 : (⟨S_, .i32⟩ : BufTy).Contents (Elt F) → (⟨S3300000, .i32⟩ : BufTy).Contents (Elt F)),
    binary main_v52 main_v80 main_v81 (addi : (⟨S3300000, .i32⟩ : BufTy).Contents (Elt F) → (⟨S3300000, .i32⟩ : BufTy).Contents (Elt F) → (⟨S3300000, .i32⟩ : BufTy).Contents (Elt F)),
    ternary main_v79 main_v81 main_v52 main_v82 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v82 main_v83 (broadcastInDim S3300000x1 ![0] bcast_S3300000_S3300000x1_0 : (⟨S3300000, .i32⟩ : BufTy).Contents (Elt F) → (⟨S3300000x1, .i32⟩ : BufTy).Contents (Elt F)),
    binary main_v50 main_v83 main_v84 ((fun x i => Host.gather gather_S100000x10_S3300000x1_S3300000x10_1_0_n_n_0_1_110 x i) : (⟨S100000x10, .f32⟩ : BufTy).Contents (Elt F) → (⟨S3300000x1, .i32⟩ : BufTy).Contents (Elt F) → (⟨S3300000x10, .f32⟩ : BufTy).Contents (Elt F)),
    unary main_v77 main_v85 (broadcastInDim S3300000x1 ![0] bcast_S3300000_S3300000x1_0 : (⟨S3300000, .f32⟩ : BufTy).Contents (Elt F) → (⟨S3300000x1, .f32⟩ : BufTy).Contents (Elt F)),
    unary main_v85 main_v86 (broadcastInDim S3300000x10 ![0, 1] bcast_S3300000x1_S3300000x10_0_1 : (⟨S3300000x1, .f32⟩ : BufTy).Contents (Elt F) → (⟨S3300000x10, .f32⟩ : BufTy).Contents (Elt F)),
    binary main_v84 main_v86 main_v87 (mulf : (⟨S3300000x10, .f32⟩ : BufTy).Contents (Elt F) → (⟨S3300000x10, .f32⟩ : BufTy).Contents (Elt F) → (⟨S3300000x10, .f32⟩ : BufTy).Contents (Elt F)),
    nullary main_cst_19 (constant S_ .f32 0x00000000#32),
    unary main_cst_19 main_v88 (broadcastInDim S100000x10 ![] bcast_S_S100000x10 : (⟨S_, .f32⟩ : BufTy).Contents (Elt F) → (⟨S100000x10, .f32⟩ : BufTy).Contents (Elt F)),
    unary main_v54 main_v89 (broadcastInDim S3300000x1 ![0] bcast_S3300000_S3300000x1_0 : (⟨S3300000, .i32⟩ : BufTy).Contents (Elt F) → (⟨S3300000x1, .i32⟩ : BufTy).Contents (Elt F)),
    ternary main_v88 main_v89 main_v87 main_v90 ((fun x i u => Host.scatterAdd scatter_S100000x10_S3300000x1_S3300000x10_1_0_0_1 x i u) : (⟨S100000x10, .f32⟩ : BufTy).Contents (Elt F) → (⟨S3300000x1, .i32⟩ : BufTy).Contents (Elt F) → (⟨S3300000x10, .f32⟩ : BufTy).Contents (Elt F) → (⟨S100000x10, .f32⟩ : BufTy).Contents (Elt F)),
    unary main_arg5 main_v91 (broadcastInDim S1x10 ![1] bcast_S10_S1x10_1 : (⟨S10, .f32⟩ : BufTy).Contents (Elt F) → (⟨S1x10, .f32⟩ : BufTy).Contents (Elt F)),
    unary main_v91 main_v92 (broadcastInDim S100000x10 ![0, 1] bcast_S1x10_S100000x10_0_1 : (⟨S1x10, .f32⟩ : BufTy).Contents (Elt F) → (⟨S100000x10, .f32⟩ : BufTy).Contents (Elt F)),
    binary main_v90 main_v92 main_v93 (addf : (⟨S100000x10, .f32⟩ : BufTy).Contents (Elt F) → (⟨S100000x10, .f32⟩ : BufTy).Contents (Elt F) → (⟨S100000x10, .f32⟩ : BufTy).Contents (Elt F)) ]

/-- Stretch 7 of 9. -/
abbrev ops7 : List (HloOp τ sig (Elt F)) :=
  [ TRef.nullary (TRef.of (T := ⟨S_, .f32⟩) main_call3_cst) (constant S_ .f32 0xFF800000#32),
    TRef.binary (TRef.of (T := ⟨S100000x10, .f32⟩) main_v93) (TRef.of (T := ⟨S_, .f32⟩) main_call3_cst) (TRef.of (T := ⟨S100000, .f32⟩) main_call3_v0) (fun x v => Host.reduce FloatOps.maximumf x v reducesTo_S100000x10_S100000_d1 h_S_) ]

/-- Stretch 8 of 9. -/
abbrev ops8 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x10, .f32⟩) main_call3_v4) (broadcastInDim S100000x10 ![0, 1] bcast_S100000x1_S100000x10_0_1),
    TRef.binary (TRef.of (T := ⟨S100000x10, .f32⟩) main_v93) (TRef.of (T := ⟨S100000x10, .f32⟩) main_call3_v4) (TRef.of (T := ⟨S100000x10, .f32⟩) main_call3_v5) subf ]

/-- Stretch 9 of 9. -/
abbrev ops9 : List (HloOp τ sig (Elt F)) :=
  [ TRef.unary (TRef.of (T := ⟨S100000x10, .f32⟩) main_call3_v5) (TRef.of (T := ⟨S100000x10, .f32⟩) main_call3_v6) Host.exp,
    TRef.nullary (TRef.of (T := ⟨S_, .f32⟩) main_call3_cst_1) (constant S_ .f32 0x00000000#32),
    TRef.binary (TRef.of (T := ⟨S100000x10, .f32⟩) main_call3_v6) (TRef.of (T := ⟨S_, .f32⟩) main_call3_cst_1) (TRef.of (T := ⟨S100000, .f32⟩) main_call3_v7) (fun x v => Host.reduceAdd x v reducesTo_S100000x10_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x10, .f32⟩) main_call3_v10) (broadcastInDim S100000x10 ![0, 1] bcast_S100000x1_S100000x10_0_1),
    TRef.binary (TRef.of (T := ⟨S100000x10, .f32⟩) main_call3_v5) (TRef.of (T := ⟨S100000x10, .f32⟩) main_call3_v10) (TRef.of (T := ⟨S100000x10, .f32⟩) main_v94) subf ]

/-- @main's operations, in order. -/
abbrev ops : List (HloOp τ sig (Elt F)) := ops1 ++ (ops2 ++ (ops3 ++ (ops4 ++ (ops5 ++ (ops6 ++ (ops7 ++ (ops8 ++ (ops9))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨nullary_bufs_sub .., unary_bufs_sub .., unary_bufs_sub .., binary_bufs_sub .., binary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub ..⟩
theorem ops2_sub : (ops2 : List (HloOp τ sig (Elt F))).Forall fun op => op.bufs ⊆ tcRefs τ sig :=
  ⟨unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem ops4_sub : (ops4 : List (HloOp τ sig (Elt F))).Forall fun op => op.bufs ⊆ tcRefs τ sig :=
  ⟨binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem ops6_sub : (ops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem ops7_sub : (ops7 : List (HloOp τ sig (Elt F))).Forall fun op => op.bufs ⊆ tcRefs τ sig :=
  ⟨nullary_bufs_sub .., binary_bufs_sub ..⟩
theorem ops8_sub : (ops8 : List (HloOp τ sig (Elt F))).Forall fun op => op.bufs ⊆ tcRefs τ sig :=
  ⟨nullary_bufs_sub .., unary_bufs_sub .., binary_bufs_sub .., unary_bufs_sub .., unary_bufs_sub .., binary_bufs_sub ..⟩
theorem ops9_sub : (ops9 : List (HloOp τ sig (Elt F))).Forall fun op => op.bufs ⊆ tcRefs τ sig :=
  ⟨unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops1_sub op h
    rcases List.mem_append.mp h with h | h
    · exact List.forall_iff_forall_mem.mp ops2_sub op h
    rcases List.mem_append.mp h with h | h
    · exact List.forall_iff_forall_mem.mp ops3_sub op h
    rcases List.mem_append.mp h with h | h
    · exact List.forall_iff_forall_mem.mp ops4_sub op h
    rcases List.mem_append.mp h with h | h
    · exact List.forall_iff_forall_mem.mp ops5_sub op h
    rcases List.mem_append.mp h with h | h
    · exact List.forall_iff_forall_mem.mp ops6_sub op h
    rcases List.mem_append.mp h with h | h
    · exact List.forall_iff_forall_mem.mp ops7_sub op h
    rcases List.mem_append.mp h with h | h
    · exact List.forall_iff_forall_mem.mp ops8_sub op h
    exact List.forall_iff_forall_mem.mp ops9_sub op h

/-- Two stretches in a row fold one after the other. -/
theorem after_append (l₁ l₂ : List (HloOp τ sig (Elt F))) (V : Valuation τ sig (Elt F)) :
    after (l₁ ++ l₂) V = after l₂ (after l₁ V) := by
  induction l₁ generalizing V with
  | nil => rfl
  | cons a l ih => exact ih _

/-! ## Each stretch over any memory: what it writes, and what it leaves alone -/

theorem s1_main_v4 (x0 : (⟨S100000x512, .f32⟩ : BufTy).Contents (Elt F)) (x1 : (⟨S2x3200000, .i32⟩ : BufTy).Contents (Elt F)) (x2 : (⟨S512x16, .f32⟩ : BufTy).Contents (Elt F)) (W : Valuation τ sig (Elt F)) (h0 : W (Proc.devRef .tc main_arg1) = x1) (h1 : W (Proc.devRef .tc main_arg0) = x0) (h2 : W (Proc.devRef .tc main_arg2) = x2) :
    after ops1 W (Proc.devRef .tc main_v4) = val_main_v4 (F := F) x1 := by
  dsimp only [ops1]
  after_results
  show (((fun a b => concatenate S2x3300000 1 [⟨S2x3200000, a⟩, ⟨S2x100000, b⟩] concatenates_S2x3200000_S2x100000_S2x3300000_d1) : (⟨S2x3200000, .i32⟩ : BufTy).Contents (Elt F) → (⟨S2x100000, .i32⟩ : BufTy).Contents (Elt F) → (⟨S2x3300000, .i32⟩ : BufTy).Contents (Elt F)) (W (Proc.devRef .tc main_arg1)) (((fun a b => concatenate S2x100000 0 [⟨S1x100000, a⟩, ⟨S1x100000, b⟩] concatenates_S1x100000_S1x100000_S2x100000_d0) : (⟨S1x100000, .i32⟩ : BufTy).Contents (Elt F) → (⟨S1x100000, .i32⟩ : BufTy).Contents (Elt F) → (⟨S2x100000, .i32⟩ : BufTy).Contents (Elt F)) ((broadcastInDim S1x100000 ![1] bcast_S100000_S1x100000_1 : (⟨S100000, .i32⟩ : BufTy).Contents (Elt F) → (⟨S1x100000, .i32⟩ : BufTy).Contents (Elt F)) ((iotaInDim S100000 32 0))) ((broadcastInDim S1x100000 ![1] bcast_S100000_S1x100000_1 : (⟨S100000, .i32⟩ : BufTy).Contents (Elt F) → (⟨S1x100000, .i32⟩ : BufTy).Contents (Elt F)) ((iotaInDim S100000 32 0))))) = _
  all_goals (try rw [h0])
  all_goals (try rw [h1])
  all_goals (try rw [h2])
  all_goals rfl
theorem s1_main_v5 (x0 : (⟨S100000x512, .f32⟩ : BufTy).Contents (Elt F)) (x1 : (⟨S2x3200000, .i32⟩ : BufTy).Contents (Elt F)) (x2 : (⟨S512x16, .f32⟩ : BufTy).Contents (Elt F)) (W : Valuation τ sig (Elt F)) (h0 : W (Proc.devRef .tc main_arg1) = x1) (h1 : W (Proc.devRef .tc main_arg0) = x0) (h2 : W (Proc.devRef .tc main_arg2) = x2) :
    after ops1 W (Proc.devRef .tc main_v5) = val_main_v5 (F := F) x0 x2 := by
  dsimp only [ops1]
  after_results
  show (((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) (W (Proc.devRef .tc main_arg0)) (W (Proc.devRef .tc main_arg2))) = _
  all_goals (try rw [h0])
  all_goals (try rw [h1])
  all_goals (try rw [h2])
  all_goals rfl
theorem s1_main_v7 (x0 : (⟨S100000x512, .f32⟩ : BufTy).Contents (Elt F)) (x1 : (⟨S2x3200000, .i32⟩ : BufTy).Contents (Elt F)) (x2 : (⟨S512x16, .f32⟩ : BufTy).Contents (Elt F)) (W : Valuation τ sig (Elt F)) (h0 : W (Proc.devRef .tc main_arg1) = x1) (h1 : W (Proc.devRef .tc main_arg0) = x0) (h2 : W (Proc.devRef .tc main_arg2) = x2) :
    after ops1 W (Proc.devRef .tc main_v7) = val_main_v7 (F := F) x1 := by
  dsimp only [ops1]
  after_results
  show (shapeCast _ (((extractStridedSlice S1x3300000 ![0, 0] · slices_S2x3300000_S1x3300000_0_0) : (⟨S2x3300000, .i32⟩ : BufTy).Contents (Elt F) → (⟨S1x3300000, .i32⟩ : BufTy).Contents (Elt F)) (((fun a b => concatenate S2x3300000 1 [⟨S2x3200000, a⟩, ⟨S2x100000, b⟩] concatenates_S2x3200000_S2x100000_S2x3300000_d1) : (⟨S2x3200000, .i32⟩ : BufTy).Contents (Elt F) → (⟨S2x100000, .i32⟩ : BufTy).Contents (Elt F) → (⟨S2x3300000, .i32⟩ : BufTy).Contents (Elt F)) (W (Proc.devRef .tc main_arg1)) (((fun a b => concatenate S2x100000 0 [⟨S1x100000, a⟩, ⟨S1x100000, b⟩] concatenates_S1x100000_S1x100000_S2x100000_d0) : (⟨S1x100000, .i32⟩ : BufTy).Contents (Elt F) → (⟨S1x100000, .i32⟩ : BufTy).Contents (Elt F) → (⟨S2x100000, .i32⟩ : BufTy).Contents (Elt F)) ((broadcastInDim S1x100000 ![1] bcast_S100000_S1x100000_1 : (⟨S100000, .i32⟩ : BufTy).Contents (Elt F) → (⟨S1x100000, .i32⟩ : BufTy).Contents (Elt F)) ((iotaInDim S100000 32 0))) ((broadcastInDim S1x100000 ![1] bcast_S100000_S1x100000_1 : (⟨S100000, .i32⟩ : BufTy).Contents (Elt F) → (⟨S1x100000, .i32⟩ : BufTy).Contents (Elt F)) ((iotaInDim S100000 32 0)))))) shapeCasts_S1x3300000_S3300000) = _
  all_goals (try rw [h0])
  all_goals (try rw [h1])
  all_goals (try rw [h2])
  all_goals rfl
theorem s1_main_v9 (x0 : (⟨S100000x512, .f32⟩ : BufTy).Contents (Elt F)) (x1 : (⟨S2x3200000, .i32⟩ : BufTy).Contents (Elt F)) (x2 : (⟨S512x16, .f32⟩ : BufTy).Contents (Elt F)) (W : Valuation τ sig (Elt F)) (h0 : W (Proc.devRef .tc main_arg1) = x1) (h1 : W (Proc.devRef .tc main_arg0) = x0) (h2 : W (Proc.devRef .tc main_arg2) = x2) :
    after ops1 W (Proc.devRef .tc main_v9) = val_main_v9 (F := F) x1 := by
  dsimp only [ops1]
  after_results
  show (shapeCast _ (((extractStridedSlice S1x3300000 ![1, 0] · slices_S2x3300000_S1x3300000_1_0) : (⟨S2x3300000, .i32⟩ : BufTy).Contents (Elt F) → (⟨S1x3300000, .i32⟩ : BufTy).Contents (Elt F)) (((fun a b => concatenate S2x3300000 1 [⟨S2x3200000, a⟩, ⟨S2x100000, b⟩] concatenates_S2x3200000_S2x100000_S2x3300000_d1) : (⟨S2x3200000, .i32⟩ : BufTy).Contents (Elt F) → (⟨S2x100000, .i32⟩ : BufTy).Contents (Elt F) → (⟨S2x3300000, .i32⟩ : BufTy).Contents (Elt F)) (W (Proc.devRef .tc main_arg1)) (((fun a b => concatenate S2x100000 0 [⟨S1x100000, a⟩, ⟨S1x100000, b⟩] concatenates_S1x100000_S1x100000_S2x100000_d0) : (⟨S1x100000, .i32⟩ : BufTy).Contents (Elt F) → (⟨S1x100000, .i32⟩ : BufTy).Contents (Elt F) → (⟨S2x100000, .i32⟩ : BufTy).Contents (Elt F)) ((broadcastInDim S1x100000 ![1] bcast_S100000_S1x100000_1 : (⟨S100000, .i32⟩ : BufTy).Contents (Elt F) → (⟨S1x100000, .i32⟩ : BufTy).Contents (Elt F)) ((iotaInDim S100000 32 0))) ((broadcastInDim S1x100000 ![1] bcast_S100000_S1x100000_1 : (⟨S100000, .i32⟩ : BufTy).Contents (Elt F) → (⟨S1x100000, .i32⟩ : BufTy).Contents (Elt F)) ((iotaInDim S100000 32 0)))))) shapeCasts_S1x3300000_S3300000) = _
  all_goals (try rw [h0])
  all_goals (try rw [h1])
  all_goals (try rw [h2])
  all_goals rfl
theorem s1_main_v15 (x0 : (⟨S100000x512, .f32⟩ : BufTy).Contents (Elt F)) (x1 : (⟨S2x3200000, .i32⟩ : BufTy).Contents (Elt F)) (x2 : (⟨S512x16, .f32⟩ : BufTy).Contents (Elt F)) (W : Valuation τ sig (Elt F)) (h0 : W (Proc.devRef .tc main_arg1) = x1) (h1 : W (Proc.devRef .tc main_arg0) = x0) (h2 : W (Proc.devRef .tc main_arg2) = x2) :
    after ops1 W (Proc.devRef .tc main_v15) = val_main_v15 (F := F) x1 := by
  dsimp only [ops1]
  after_results
  show ((cmpf .ogt : (⟨S100000, .f32⟩ : BufTy).Contents (Elt F) → (⟨S100000, .f32⟩ : BufTy).Contents (Elt F) → (⟨S100000, .i1⟩ : BufTy).Contents (Elt F)) (((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x00000000#32))) ((broadcastInDim S3300000x1 ![0] bcast_S3300000_S3300000x1_0 : (⟨S3300000, .i32⟩ : BufTy).Contents (Elt F) → (⟨S3300000x1, .i32⟩ : BufTy).Contents (Elt F)) (shapeCast _ (((extractStridedSlice S1x3300000 ![1, 0] · slices_S2x3300000_S1x3300000_1_0) : (⟨S2x3300000, .i32⟩ : BufTy).Contents (Elt F) → (⟨S1x3300000, .i32⟩ : BufTy).Contents (Elt F)) (((fun a b => concatenate S2x3300000 1 [⟨S2x3200000, a⟩, ⟨S2x100000, b⟩] concatenates_S2x3200000_S2x100000_S2x3300000_d1) : (⟨S2x3200000, .i32⟩ : BufTy).Contents (Elt F) → (⟨S2x100000, .i32⟩ : BufTy).Contents (Elt F) → (⟨S2x3300000, .i32⟩ : BufTy).Contents (Elt F)) (W (Proc.devRef .tc main_arg1)) (((fun a b => concatenate S2x100000 0 [⟨S1x100000, a⟩, ⟨S1x100000, b⟩] concatenates_S1x100000_S1x100000_S2x100000_d0) : (⟨S1x100000, .i32⟩ : BufTy).Contents (Elt F) → (⟨S1x100000, .i32⟩ : BufTy).Contents (Elt F) → (⟨S2x100000, .i32⟩ : BufTy).Contents (Elt F)) ((broadcastInDim S1x100000 ![1] bcast_S100000_S1x100000_1 : (⟨S100000, .i32⟩ : BufTy).Contents (Elt F) → (⟨S1x100000, .i32⟩ : BufTy).Contents (Elt F)) ((iotaInDim S100000 32 0))) ((broadcastInDim S1x100000 ![1] bcast_S100000_S1x100000_1 : (⟨S100000, .i32⟩ : BufTy).Contents (Elt F) → (⟨S1x100000, .i32⟩ : BufTy).Contents (Elt F)) ((iotaInDim S100000 32 0)))))) shapeCasts_S1x3300000_S3300000)) ((broadcastInDim S3300000 ![] bcast_S_S3300000 : (⟨S_, .f32⟩ : BufTy).Contents (Elt F) → (⟨S3300000, .f32⟩ : BufTy).Contents (Elt F)) ((constant S_ .f32 0x3F800000#32)))) ((broadcastInDim S100000 ![] bcast_S_S100000 : (⟨S_, .f32⟩ : BufTy).Contents (Elt F) → (⟨S100000, .f32⟩ : BufTy).Contents (Elt F)) ((constant S_ .f32 0x00000000#32)))) = _
  all_goals (try rw [h0])
  all_goals (try rw [h1])
  all_goals (try rw [h2])
  all_goals rfl
theorem s1_main_v16 (x0 : (⟨S100000x512, .f32⟩ : BufTy).Contents (Elt F)) (x1 : (⟨S2x3200000, .i32⟩ : BufTy).Contents (Elt F)) (x2 : (⟨S512x16, .f32⟩ : BufTy).Contents (Elt F)) (W : Valuation τ sig (Elt F)) (h0 : W (Proc.devRef .tc main_arg1) = x1) (h1 : W (Proc.devRef .tc main_arg0) = x0) (h2 : W (Proc.devRef .tc main_arg2) = x2) :
    after ops1 W (Proc.devRef .tc main_v16) = val_main_v16 (F := F) x1 := by
  dsimp only [ops1]
  after_results
  show ((Host.rsqrt : (⟨S100000, .f32⟩ : BufTy).Contents (Elt F) → (⟨S100000, .f32⟩ : BufTy).Contents (Elt F)) (((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x00000000#32))) ((broadcastInDim S3300000x1 ![0] bcast_S3300000_S3300000x1_0 : (⟨S3300000, .i32⟩ : BufTy).Contents (Elt F) → (⟨S3300000x1, .i32⟩ : BufTy).Contents (Elt F)) (shapeCast _ (((extractStridedSlice S1x3300000 ![1, 0] · slices_S2x3300000_S1x3300000_1_0) : (⟨S2x3300000, .i32⟩ : BufTy).Contents (Elt F) → (⟨S1x3300000, .i32⟩ : BufTy).Contents (Elt F)) (((fun a b => concatenate S2x3300000 1 [⟨S2x3200000, a⟩, ⟨S2x100000, b⟩] concatenates_S2x3200000_S2x100000_S2x3300000_d1) : (⟨S2x3200000, .i32⟩ : BufTy).Contents (Elt F) → (⟨S2x100000, .i32⟩ : BufTy).Contents (Elt F) → (⟨S2x3300000, .i32⟩ : BufTy).Contents (Elt F)) (W (Proc.devRef .tc main_arg1)) (((fun a b => concatenate S2x100000 0 [⟨S1x100000, a⟩, ⟨S1x100000, b⟩] concatenates_S1x100000_S1x100000_S2x100000_d0) : (⟨S1x100000, .i32⟩ : BufTy).Contents (Elt F) → (⟨S1x100000, .i32⟩ : BufTy).Contents (Elt F) → (⟨S2x100000, .i32⟩ : BufTy).Contents (Elt F)) ((broadcastInDim S1x100000 ![1] bcast_S100000_S1x100000_1 : (⟨S100000, .i32⟩ : BufTy).Contents (Elt F) → (⟨S1x100000, .i32⟩ : BufTy).Contents (Elt F)) ((iotaInDim S100000 32 0))) ((broadcastInDim S1x100000 ![1] bcast_S100000_S1x100000_1 : (⟨S100000, .i32⟩ : BufTy).Contents (Elt F) → (⟨S1x100000, .i32⟩ : BufTy).Contents (Elt F)) ((iotaInDim S100000 32 0)))))) shapeCasts_S1x3300000_S3300000)) ((broadcastInDim S3300000 ![] bcast_S_S3300000 : (⟨S_, .f32⟩ : BufTy).Contents (Elt F) → (⟨S3300000, .f32⟩ : BufTy).Contents (Elt F)) ((constant S_ .f32 0x3F800000#32))))) = _
  all_goals (try rw [h0])
  all_goals (try rw [h1])
  all_goals (try rw [h2])
  all_goals rfl
theorem s1_main_cst_2 (x0 : (⟨S100000x512, .f32⟩ : BufTy).Contents (Elt F)) (x1 : (⟨S2x3200000, .i32⟩ : BufTy).Contents (Elt F)) (x2 : (⟨S512x16, .f32⟩ : BufTy).Contents (Elt F)) (W : Valuation τ sig (Elt F)) (h0 : W (Proc.devRef .tc main_arg1) = x1) (h1 : W (Proc.devRef .tc main_arg0) = x0) (h2 : W (Proc.devRef .tc main_arg2) = x2) :
    after ops1 W (Proc.devRef .tc main_cst_2) = val_main_cst_2 (F := F) := by
  dsimp only [ops1]
  after_results
  show ((constant S_ .f32 0x00000000#32)) = _
  all_goals (try rw [h0])
  all_goals (try rw [h1])
  all_goals (try rw [h2])
  all_goals rfl
theorem s1_keep (W : Valuation τ sig (Elt F)) (b : Ref sig .tc) (hb : b = main_arg3 ∨ b = main_arg4 ∨ b = main_arg5 ∨ b = main_arg0 ∨ b = main_arg1 ∨ b = main_arg2) :
    after ops1 W (Proc.devRef .tc b) = W (Proc.devRef .tc b) := by
  dsimp only [ops1]
  rcases hb with rfl | rfl | rfl | rfl | rfl | rfl <;> after_results

theorem s2_main_v32 (x1 : (⟨S2x3200000, .i32⟩ : BufTy).Contents (Elt F)) (W : Valuation τ sig (Elt F)) (h0 : W (Proc.devRef .tc main_cst_2) = val_main_cst_2 (F := F)) (h1 : W (Proc.devRef .tc main_v15) = val_main_v15 (F := F) x1) (h2 : W (Proc.devRef .tc main_v16) = val_main_v16 (F := F) x1) (h3 : W (Proc.devRef .tc main_v7) = val_main_v7 (F := F) x1) (h4 : W (Proc.devRef .tc main_v9) = val_main_v9 (F := F) x1) :
    after ops2 W (Proc.devRef .tc main_v32) = val_main_v32 (F := F) x1 := by
  dsimp only [ops2]
  after_results_simp
  show ((mulf : (⟨S3300000, .f32⟩ : BufTy).Contents (Elt F) → (⟨S3300000, .f32⟩ : BufTy).Contents (Elt F) → (⟨S3300000, .f32⟩ : BufTy).Contents (Elt F)) (((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) ((select (W (Proc.devRef .tc main_v15)) (W (Proc.devRef .tc main_v16)) (((broadcastInDim S100000 ![] bcast_S_S100000) ((id (W (Proc.devRef .tc main_cst_2))) : (⟨S_, .f32⟩ : BufTy).Contents (Elt F))) : (⟨S100000, .f32⟩ : BufTy).Contents (Elt F))) : (⟨S100000, .f32⟩ : BufTy).Contents (Elt F)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_v7)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_v7)) ((broadcastInDim S3300000 ![] bcast_S_S3300000 : (⟨S_, .i32⟩ : BufTy).Contents (Elt F) → (⟨S3300000, .i32⟩ : BufTy).Contents (Elt F)) ((constantI S_ 32 100000#32)))) (W (Proc.devRef .tc main_v7))))) (((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) ((select (W (Proc.devRef .tc main_v15)) (W (Proc.devRef .tc main_v16)) (((broadcastInDim S100000 ![] bcast_S_S100000) ((id (W (Proc.devRef .tc main_cst_2))) : (⟨S_, .f32⟩ : BufTy).Contents (Elt F))) : (⟨S100000, .f32⟩ : BufTy).Contents (Elt F))) : (⟨S100000, .f32⟩ : BufTy).Contents (Elt F)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_v9)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_v9)) ((broadcastInDim S3300000 ![] bcast_S_S3300000 : (⟨S_, .i32⟩ : BufTy).Contents (Elt F) → (⟨S3300000, .i32⟩ : BufTy).Contents (Elt F)) ((constantI S_ 32 100000#32)))) (W (Proc.devRef .tc main_v9)))))) = _
  all_goals (try rw [h0])
  all_goals (try rw [h1])
  all_goals (try rw [h2])
  all_goals (try rw [h3])
  all_goals (try rw [h4])
  all_goals rfl
theorem s2_keep (W : Valuation τ sig (Elt F)) (b : Ref sig .tc) (hb : b = main_v7 ∨ b = main_v5 ∨ b = main_v9 ∨ b = main_arg3 ∨ b = main_arg4 ∨ b = main_v4 ∨ b = main_arg5 ∨ b = main_arg0 ∨ b = main_arg1 ∨ b = main_arg2) :
    after ops2 W (Proc.devRef .tc b) = W (Proc.devRef .tc b) := by
  dsimp only [ops2]
  rcases hb with rfl | rfl | rfl | rfl | rfl | rfl | rfl | rfl | rfl | rfl <;> after_results

theorem s3_main_v49 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (W : Valuation τ sig (Elt F)) (h0 : W (Proc.devRef .tc main_v7) = val_main_v7 (F := F) x1) (h1 : W (Proc.devRef .tc main_v5) = val_main_v5 (F := F) x0 x2) (h2 : W (Proc.devRef .tc main_v32) = val_main_v32 (F := F) x1) (h3 : W (Proc.devRef .tc main_v9) = val_main_v9 (F := F) x1) (h4 : W (Proc.devRef .tc main_arg3) = x3) :
    after ops3 W (Proc.devRef .tc main_v49) = val_main_v49 (F := F) x0 x1 x2 x3 := by
  dsimp only [ops3]
  after_results_simp
  show ((maximumf ((addf : (⟨S100000x16, .f32⟩ : BufTy).Contents (Elt F) → (⟨S100000x16, .f32⟩ : BufTy).Contents (Elt F) → (⟨S100000x16, .f32⟩ : BufTy).Contents (Elt F)) (((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ((broadcastInDim S100000x16 ![] bcast_S_S100000x16 : (⟨S_, .f32⟩ : BufTy).Contents (Elt F) → (⟨S100000x16, .f32⟩ : BufTy).Contents (Elt F)) ((constant S_ .f32 0x00000000#32))) ((broadcastInDim S3300000x1 ![0] bcast_S3300000_S3300000x1_0 : (⟨S3300000, .i32⟩ : BufTy).Contents (Elt F) → (⟨S3300000x1, .i32⟩ : BufTy).Contents (Elt F)) (W (Proc.devRef .tc main_v9))) ((mulf : (⟨S3300000x16, .f32⟩ : BufTy).Contents (Elt F) → (⟨S3300000x16, .f32⟩ : BufTy).Contents (Elt F) → (⟨S3300000x16, .f32⟩ : BufTy).Contents (Elt F)) (((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)) (W (Proc.devRef .tc main_v5)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_v7)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_v7)) ((broadcastInDim S3300000 ![] bcast_S_S3300000 : (⟨S_, .i32⟩ : BufTy).Contents (Elt F) → (⟨S3300000, .i32⟩ : BufTy).Contents (Elt F)) ((constantI S_ 32 100000#32)))) (W (Proc.devRef .tc main_v7))))) ((broadcastInDim S3300000x16 ![0, 1] bcast_S3300000x1_S3300000x16_0_1 : (⟨S3300000x1, .f32⟩ : BufTy).Contents (Elt F) → (⟨S3300000x16, .f32⟩ : BufTy).Contents (Elt F)) ((broadcastInDim S3300000x1 ![0] bcast_S3300000_S3300000x1_0 : (⟨S3300000, .f32⟩ : BufTy).Contents (Elt F) → (⟨S3300000x1, .f32⟩ : BufTy).Contents (Elt F)) (W (Proc.devRef .tc main_v32)))))) ((broadcastInDim S100000x16 ![0, 1] bcast_S1x16_S100000x16_0_1 : (⟨S1x16, .f32⟩ : BufTy).Contents (Elt F) → (⟨S100000x16, .f32⟩ : BufTy).Contents (Elt F)) ((broadcastInDim S1x16 ![1] bcast_S16_S1x16_1 : (⟨S16, .f32⟩ : BufTy).Contents (Elt F) → (⟨S1x16, .f32⟩ : BufTy).Contents (Elt F)) (W (Proc.devRef .tc main_arg3))))) (((broadcastInDim S100000x16 ![] bcast_S_S100000x16) (((constant S_ .f32 0x00000000#32)) : (⟨S_, .f32⟩ : BufTy).Contents (Elt F))) : (⟨S100000x16, .f32⟩ : BufTy).Contents (Elt F))) : (⟨S100000x16, .f32⟩ : BufTy).Contents (Elt F)) = _
  all_goals (try rw [h0])
  all_goals (try rw [h1])
  all_goals (try rw [h2])
  all_goals (try rw [h3])
  all_goals (try rw [h4])
  all_goals rfl
theorem s3_keep (W : Valuation τ sig (Elt F)) (b : Ref sig .tc) (hb : b = main_arg4 ∨ b = main_v4 ∨ b = main_arg5 ∨ b = main_arg0 ∨ b = main_arg1 ∨ b = main_arg2 ∨ b = main_arg3) :
    after ops3 W (Proc.devRef .tc b) = W (Proc.devRef .tc b) := by
  dsimp only [ops3]
  rcases hb with rfl | rfl | rfl | rfl | rfl | rfl | rfl <;> after_results

theorem s4_main_v50 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x10, .f32⟩ : BufTy).Contents (Elt F)) (W : Valuation τ sig (Elt F)) (h0 : W (Proc.devRef .tc main_v49) = val_main_v49 (F := F) x0 x1 x2 x3) (h1 : W (Proc.devRef .tc main_arg4) = x4) (h2 : W (Proc.devRef .tc main_v4) = val_main_v4 (F := F) x1) :
    after ops4 W (Proc.devRef .tc main_v50) = val_main_v50 (F := F) x0 x1 x2 x3 x4 := by
  dsimp only [ops4]
  after_results_simp
  show (((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)) (W (Proc.devRef .tc main_v49)) (W (Proc.devRef .tc main_arg4))) = _
  all_goals (try rw [h0])
  all_goals (try rw [h1])
  all_goals (try rw [h2])
  all_goals rfl
theorem s4_main_v52 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x10, .f32⟩ : BufTy).Contents (Elt F)) (W : Valuation τ sig (Elt F)) (h0 : W (Proc.devRef .tc main_v49) = val_main_v49 (F := F) x0 x1 x2 x3) (h1 : W (Proc.devRef .tc main_arg4) = x4) (h2 : W (Proc.devRef .tc main_v4) = val_main_v4 (F := F) x1) :
    after ops4 W (Proc.devRef .tc main_v52) = val_main_v52 (F := F) x1 := by
  dsimp only [ops4]
  after_results_simp
  show (shapeCast _ (((extractStridedSlice S1x3300000 ![0, 0] · slices_S2x3300000_S1x3300000_0_0) : (⟨S2x3300000, .i32⟩ : BufTy).Contents (Elt F) → (⟨S1x3300000, .i32⟩ : BufTy).Contents (Elt F)) (W (Proc.devRef .tc main_v4))) shapeCasts_S1x3300000_S3300000) = _
  all_goals (try rw [h0])
  all_goals (try rw [h1])
  all_goals (try rw [h2])
  all_goals rfl
theorem s4_main_v54 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x10, .f32⟩ : BufTy).Contents (Elt F)) (W : Valuation τ sig (Elt F)) (h0 : W (Proc.devRef .tc main_v49) = val_main_v49 (F := F) x0 x1 x2 x3) (h1 : W (Proc.devRef .tc main_arg4) = x4) (h2 : W (Proc.devRef .tc main_v4) = val_main_v4 (F := F) x1) :
    after ops4 W (Proc.devRef .tc main_v54) = val_main_v54 (F := F) x1 := by
  dsimp only [ops4]
  after_results_simp
  show (shapeCast _ (((extractStridedSlice S1x3300000 ![1, 0] · slices_S2x3300000_S1x3300000_1_0) : (⟨S2x3300000, .i32⟩ : BufTy).Contents (Elt F) → (⟨S1x3300000, .i32⟩ : BufTy).Contents (Elt F)) (W (Proc.devRef .tc main_v4))) shapeCasts_S1x3300000_S3300000) = _
  all_goals (try rw [h0])
  all_goals (try rw [h1])
  all_goals (try rw [h2])
  all_goals rfl
theorem s4_main_v62 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x10, .f32⟩ : BufTy).Contents (Elt F)) (W : Valuation τ sig (Elt F)) (h0 : W (Proc.devRef .tc main_v49) = val_main_v49 (F := F) x0 x1 x2 x3) (h1 : W (Proc.devRef .tc main_arg4) = x4) (h2 : W (Proc.devRef .tc main_v4) = val_main_v4 (F := F) x1) :
    after ops4 W (Proc.devRef .tc main_v62) = val_main_v62 (F := F) x1 := by
  dsimp only [ops4]
  after_results_simp
  show ((select ((cmpf .ogt : (⟨S100000, .f32⟩ : BufTy).Contents (Elt F) → (⟨S100000, .f32⟩ : BufTy).Contents (Elt F) → (⟨S100000, .i1⟩ : BufTy).Contents (Elt F)) (((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x00000000#32))) ((broadcastInDim S3300000x1 ![0] bcast_S3300000_S3300000x1_0 : (⟨S3300000, .i32⟩ : BufTy).Contents (Elt F) → (⟨S3300000x1, .i32⟩ : BufTy).Contents (Elt F)) (shapeCast _ (((extractStridedSlice S1x3300000 ![1, 0] · slices_S2x3300000_S1x3300000_1_0) : (⟨S2x3300000, .i32⟩ : BufTy).Contents (Elt F) → (⟨S1x3300000, .i32⟩ : BufTy).Contents (Elt F)) (W (Proc.devRef .tc main_v4))) shapeCasts_S1x3300000_S3300000)) ((broadcastInDim S3300000 ![] bcast_S_S3300000 : (⟨S_, .f32⟩ : BufTy).Contents (Elt F) → (⟨S3300000, .f32⟩ : BufTy).Contents (Elt F)) ((constant S_ .f32 0x3F800000#32)))) ((broadcastInDim S100000 ![] bcast_S_S100000 : (⟨S_, .f32⟩ : BufTy).Contents (Elt F) → (⟨S100000, .f32⟩ : BufTy).Contents (Elt F)) ((constant S_ .f32 0x00000000#32)))) ((Host.rsqrt : (⟨S100000, .f32⟩ : BufTy).Contents (Elt F) → (⟨S100000, .f32⟩ : BufTy).Contents (Elt F)) (((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x00000000#32))) ((broadcastInDim S3300000x1 ![0] bcast_S3300000_S3300000x1_0 : (⟨S3300000, .i32⟩ : BufTy).Contents (Elt F) → (⟨S3300000x1, .i32⟩ : BufTy).Contents (Elt F)) (shapeCast _ (((extractStridedSlice S1x3300000 ![1, 0] · slices_S2x3300000_S1x3300000_1_0) : (⟨S2x3300000, .i32⟩ : BufTy).Contents (Elt F) → (⟨S1x3300000, .i32⟩ : BufTy).Contents (Elt F)) (W (Proc.devRef .tc main_v4))) shapeCasts_S1x3300000_S3300000)) ((broadcastInDim S3300000 ![] bcast_S_S3300000 : (⟨S_, .f32⟩ : BufTy).Contents (Elt F) → (⟨S3300000, .f32⟩ : BufTy).Contents (Elt F)) ((constant S_ .f32 0x3F800000#32))))) (((broadcastInDim S100000 ![] bcast_S_S100000) ((id ((constant S_ .f32 0x00000000#32))) : (⟨S_, .f32⟩ : BufTy).Contents (Elt F))) : (⟨S100000, .f32⟩ : BufTy).Contents (Elt F))) : (⟨S100000, .f32⟩ : BufTy).Contents (Elt F)) = _
  all_goals (try rw [h0])
  all_goals (try rw [h1])
  all_goals (try rw [h2])
  all_goals rfl
theorem s4_keep (W : Valuation τ sig (Elt F)) (b : Ref sig .tc) (hb : b = main_arg5 ∨ b = main_arg0 ∨ b = main_arg1 ∨ b = main_arg2 ∨ b = main_arg3 ∨ b = main_arg4) :
    after ops4 W (Proc.devRef .tc b) = W (Proc.devRef .tc b) := by
  dsimp only [ops4]
  rcases hb with rfl | rfl | rfl | rfl | rfl | rfl <;> after_results

theorem s5_main_v77 (x1 : (⟨S2x3200000, .i32⟩ : BufTy).Contents (Elt F)) (W : Valuation τ sig (Elt F)) (h0 : W (Proc.devRef .tc main_v52) = val_main_v52 (F := F) x1) (h1 : W (Proc.devRef .tc main_v62) = val_main_v62 (F := F) x1) (h2 : W (Proc.devRef .tc main_v54) = val_main_v54 (F := F) x1) :
    after ops5 W (Proc.devRef .tc main_v77) = val_main_v77 (F := F) x1 := by
  dsimp only [ops5]
  after_results_simp
  show ((mulf : (⟨S3300000, .f32⟩ : BufTy).Contents (Elt F) → (⟨S3300000, .f32⟩ : BufTy).Contents (Elt F) → (⟨S3300000, .f32⟩ : BufTy).Contents (Elt F)) (((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) (W (Proc.devRef .tc main_v62)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_v52)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_v52)) ((broadcastInDim S3300000 ![] bcast_S_S3300000 : (⟨S_, .i32⟩ : BufTy).Contents (Elt F) → (⟨S3300000, .i32⟩ : BufTy).Contents (Elt F)) ((constantI S_ 32 100000#32)))) (W (Proc.devRef .tc main_v52))))) (((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) (W (Proc.devRef .tc main_v62)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_v54)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_v54)) ((broadcastInDim S3300000 ![] bcast_S_S3300000 : (⟨S_, .i32⟩ : BufTy).Contents (Elt F) → (⟨S3300000, .i32⟩ : BufTy).Contents (Elt F)) ((constantI S_ 32 100000#32)))) (W (Proc.devRef .tc main_v54)))))) = _
  all_goals (try rw [h0])
  all_goals (try rw [h1])
  all_goals (try rw [h2])
  all_goals rfl
theorem s5_keep (W : Valuation τ sig (Elt F)) (b : Ref sig .tc) (hb : b = main_v52 ∨ b = main_v50 ∨ b = main_v54 ∨ b = main_arg5 ∨ b = main_arg0 ∨ b = main_arg1 ∨ b = main_arg2 ∨ b = main_arg3 ∨ b = main_arg4) :
    after ops5 W (Proc.devRef .tc b) = W (Proc.devRef .tc b) := by
  dsimp only [ops5]
  rcases hb with rfl | rfl | rfl | rfl | rfl | rfl | rfl | rfl | rfl <;> after_results

theorem s6_main_v93 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x10, .f32⟩ : BufTy).Contents (Elt F)) (x5 : (⟨S10, .f32⟩ : BufTy).Contents (Elt F)) (W : Valuation τ sig (Elt F)) (h0 : W (Proc.devRef .tc main_v52) = val_main_v52 (F := F) x1) (h1 : W (Proc.devRef .tc main_v50) = val_main_v50 (F := F) x0 x1 x2 x3 x4) (h2 : W (Proc.devRef .tc main_v77) = val_main_v77 (F := F) x1) (h3 : W (Proc.devRef .tc main_v54) = val_main_v54 (F := F) x1) (h4 : W (Proc.devRef .tc main_arg5) = x5) :
    after ops6 W (Proc.devRef .tc main_v93) = val_main_v93 (F := F) x0 x1 x2 x3 x4 x5 := by
  dsimp only [ops6]
  after_results_simp
  show ((addf : (⟨S100000x10, .f32⟩ : BufTy).Contents (Elt F) → (⟨S100000x10, .f32⟩ : BufTy).Contents (Elt F) → (⟨S100000x10, .f32⟩ : BufTy).Contents (Elt F)) (((fun x i u => Host.scatterAdd scatter_S100000x10_S3300000x1_S3300000x10_1_0_0_1 x i u) : (⟨S100000x10, .f32⟩ : BufTy).Contents (Elt F) → (⟨S3300000x1, .i32⟩ : BufTy).Contents (Elt F) → (⟨S3300000x10, .f32⟩ : BufTy).Contents (Elt F) → (⟨S100000x10, .f32⟩ : BufTy).Contents (Elt F)) ((broadcastInDim S100000x10 ![] bcast_S_S100000x10 : (⟨S_, .f32⟩ : BufTy).Contents (Elt F) → (⟨S100000x10, .f32⟩ : BufTy).Contents (Elt F)) ((constant S_ .f32 0x00000000#32))) ((broadcastInDim S3300000x1 ![0] bcast_S3300000_S3300000x1_0 : (⟨S3300000, .i32⟩ : BufTy).Contents (Elt F) → (⟨S3300000x1, .i32⟩ : BufTy).Contents (Elt F)) (W (Proc.devRef .tc main_v54))) ((mulf : (⟨S3300000x10, .f32⟩ : BufTy).Contents (Elt F) → (⟨S3300000x10, .f32⟩ : BufTy).Contents (Elt F) → (⟨S3300000x10, .f32⟩ : BufTy).Contents (Elt F)) (((fun x i => Host.gather gather_S100000x10_S3300000x1_S3300000x10_1_0_n_n_0_1_110 x i) : (⟨S100000x10, .f32⟩ : BufTy).Contents (Elt F) → (⟨S3300000x1, .i32⟩ : BufTy).Contents (Elt F) → (⟨S3300000x10, .f32⟩ : BufTy).Contents (Elt F)) (W (Proc.devRef .tc main_v50)) ((broadcastInDim S3300000x1 ![0] bcast_S3300000_S3300000x1_0 : (⟨S3300000, .i32⟩ : BufTy).Contents (Elt F) → (⟨S3300000x1, .i32⟩ : BufTy).Contents (Elt F)) ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) ((cmpi .slt : (⟨S3300000, .i32⟩ : BufTy).Contents (Elt F) → (⟨S3300000, .i32⟩ : BufTy).Contents (Elt F) → (⟨S3300000, .i1⟩ : BufTy).Contents (Elt F)) (W (Proc.devRef .tc main_v52)) ((broadcastInDim S3300000 ![] bcast_S_S3300000 : (⟨S_, .i32⟩ : BufTy).Contents (Elt F) → (⟨S3300000, .i32⟩ : BufTy).Contents (Elt F)) ((constantI S_ 32 0#32)))) ((addi : (⟨S3300000, .i32⟩ : BufTy).Contents (Elt F) → (⟨S3300000, .i32⟩ : BufTy).Contents (Elt F) → (⟨S3300000, .i32⟩ : BufTy).Contents (Elt F)) (W (Proc.devRef .tc main_v52)) ((broadcastInDim S3300000 ![] bcast_S_S3300000 : (⟨S_, .i32⟩ : BufTy).Contents (Elt F) → (⟨S3300000, .i32⟩ : BufTy).Contents (Elt F)) ((constantI S_ 32 100000#32)))) (W (Proc.devRef .tc main_v52))))) ((broadcastInDim S3300000x10 ![0, 1] bcast_S3300000x1_S3300000x10_0_1 : (⟨S3300000x1, .f32⟩ : BufTy).Contents (Elt F) → (⟨S3300000x10, .f32⟩ : BufTy).Contents (Elt F)) ((broadcastInDim S3300000x1 ![0] bcast_S3300000_S3300000x1_0 : (⟨S3300000, .f32⟩ : BufTy).Contents (Elt F) → (⟨S3300000x1, .f32⟩ : BufTy).Contents (Elt F)) (W (Proc.devRef .tc main_v77)))))) ((broadcastInDim S100000x10 ![0, 1] bcast_S1x10_S100000x10_0_1 : (⟨S1x10, .f32⟩ : BufTy).Contents (Elt F) → (⟨S100000x10, .f32⟩ : BufTy).Contents (Elt F)) ((broadcastInDim S1x10 ![1] bcast_S10_S1x10_1 : (⟨S10, .f32⟩ : BufTy).Contents (Elt F) → (⟨S1x10, .f32⟩ : BufTy).Contents (Elt F)) (W (Proc.devRef .tc main_arg5))))) = _
  all_goals (try rw [h0])
  all_goals (try rw [h1])
  all_goals (try rw [h2])
  all_goals (try rw [h3])
  all_goals (try rw [h4])
  all_goals rfl
theorem s6_keep (W : Valuation τ sig (Elt F)) (b : Ref sig .tc) (hb : b = main_arg0 ∨ b = main_arg1 ∨ b = main_arg2 ∨ b = main_arg3 ∨ b = main_arg4 ∨ b = main_arg5) :
    after ops6 W (Proc.devRef .tc b) = W (Proc.devRef .tc b) := by
  dsimp only [ops6]
  rcases hb with rfl | rfl | rfl | rfl | rfl | rfl <;> after_results

theorem s7_main_call3_v0 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x10, .f32⟩ : BufTy).Contents (Elt F)) (x5 : (⟨S10, .f32⟩ : BufTy).Contents (Elt F)) (W : Valuation τ sig (Elt F)) (h0 : W (Proc.devRef .tc main_v93) = val_main_v93 (F := F) x0 x1 x2 x3 x4 x5) :
    after ops7 W (Proc.devRef .tc main_call3_v0) = val_main_call3_v0 (F := F) x0 x1 x2 x3 x4 x5 := by
  dsimp only [ops7]
  after_results_simp
  rw [h0]
  unfold val_main_call3_v0 val_main_call3_cst
  generalize val_main_v93 (F := F) x0 x1 x2 x3 x4 x5 = X
  have e : ∀ v : (⟨S100000, .f32⟩ : BufTy).Contents (Elt F), (TRef.of (T := ⟨S100000, .f32⟩) main_call3_v0).toBuf v = v := fun v => rfl
  rw [e]
  rfl
theorem s7_keep (W : Valuation τ sig (Elt F)) (b : Ref sig .tc) (hb : b = main_v93 ∨ b = main_arg0 ∨ b = main_arg1 ∨ b = main_arg2 ∨ b = main_arg3 ∨ b = main_arg4 ∨ b = main_arg5) :
    after ops7 W (Proc.devRef .tc b) = W (Proc.devRef .tc b) := by
  dsimp only [ops7]
  rcases hb with rfl | rfl | rfl | rfl | rfl | rfl | rfl <;> after_results

theorem s8_main_call3_v5 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x10, .f32⟩ : BufTy).Contents (Elt F)) (x5 : (⟨S10, .f32⟩ : BufTy).Contents (Elt F)) (W : Valuation τ sig (Elt F)) (h0 : W (Proc.devRef .tc main_call3_v0) = val_main_call3_v0 (F := F) x0 x1 x2 x3 x4 x5) (h1 : W (Proc.devRef .tc main_v93) = val_main_v93 (F := F) x0 x1 x2 x3 x4 x5) :
    after ops8 W (Proc.devRef .tc main_call3_v5) = val_main_call3_v5 (F := F) x0 x1 x2 x3 x4 x5 := by
  dsimp only [ops8]
  after_results_simp
  show ((subf (W (Proc.devRef .tc main_v93)) (((broadcastInDim S100000x10 ![0, 1] bcast_S100000x1_S100000x10_0_1) (((broadcastInDim S100000x1 ![0] bcast_S100000_S100000x1_0) ((maximumf (((broadcastInDim S100000 ![] bcast_S_S100000) (((constant S_ .f32 0xFF800000#32)) : (⟨S_, .f32⟩ : BufTy).Contents (Elt F))) : (⟨S100000, .f32⟩ : BufTy).Contents (Elt F)) (W (Proc.devRef .tc main_call3_v0))) : (⟨S100000, .f32⟩ : BufTy).Contents (Elt F))) : (⟨S100000x1, .f32⟩ : BufTy).Contents (Elt F))) : (⟨S100000x10, .f32⟩ : BufTy).Contents (Elt F))) : (⟨S100000x10, .f32⟩ : BufTy).Contents (Elt F)) = _
  all_goals (try rw [h0])
  all_goals (try rw [h1])
  all_goals rfl
theorem s8_keep (W : Valuation τ sig (Elt F)) (b : Ref sig .tc) (hb : b = main_arg0 ∨ b = main_arg1 ∨ b = main_arg2 ∨ b = main_arg3 ∨ b = main_arg4 ∨ b = main_arg5) :
    after ops8 W (Proc.devRef .tc b) = W (Proc.devRef .tc b) := by
  dsimp only [ops8]
  rcases hb with rfl | rfl | rfl | rfl | rfl | rfl <;> after_results

theorem s9_main_v94 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x10, .f32⟩ : BufTy).Contents (Elt F)) (x5 : (⟨S10, .f32⟩ : BufTy).Contents (Elt F)) (W : Valuation τ sig (Elt F)) (h0 : W (Proc.devRef .tc main_call3_v5) = val_main_call3_v5 (F := F) x0 x1 x2 x3 x4 x5) :
    after ops9 W (Proc.devRef .tc main_v94) = val_main_v94 (F := F) x0 x1 x2 x3 x4 x5 := by
  dsimp only [ops9]
  after_results_simp
  show ((subf (W (Proc.devRef .tc main_call3_v5)) (((broadcastInDim S100000x10 ![0, 1] bcast_S100000x1_S100000x10_0_1) ((Host.log (((broadcastInDim S100000x1 ![0] bcast_S100000_S100000x1_0) (((fun x v => Host.reduceAdd x v reducesTo_S100000x10_S100000_d1 h_S_) ((Host.exp (W (Proc.devRef .tc main_call3_v5))) : (⟨S100000x10, .f32⟩ : BufTy).Contents (Elt F)) (((constant S_ .f32 0x00000000#32)) : (⟨S_, .f32⟩ : BufTy).Contents (Elt F))) : (⟨S100000, .f32⟩ : BufTy).Contents (Elt F))) : (⟨S100000x1, .f32⟩ : BufTy).Contents (Elt F))) : (⟨S100000x1, .f32⟩ : BufTy).Contents (Elt F))) : (⟨S100000x10, .f32⟩ : BufTy).Contents (Elt F))) : (⟨S100000x10, .f32⟩ : BufTy).Contents (Elt F)) = _
  all_goals (try rw [h0])
  all_goals rfl
theorem s9_keep (W : Valuation τ sig (Elt F)) (b : Ref sig .tc) (hb : b = main_arg0 ∨ b = main_arg1 ∨ b = main_arg2 ∨ b = main_arg3 ∨ b = main_arg4 ∨ b = main_arg5) :
    after ops9 W (Proc.devRef .tc b) = W (Proc.devRef .tc b) := by
  dsimp only [ops9]
  rcases hb with rfl | rfl | rfl | rfl | rfl | rfl <;> after_results

/-! ## The memory after each stretch, from the launch memory -/

/-- The memory after stretch 1. -/
def V1 (m : (ℓ : Loc nD τ sig) → Buf (Elt F) ℓ) (c : Dev nD) : Valuation τ sig (Elt F) := after ops1 (launchContents m c)
/-- The memory after stretch 2. -/
def V2 (m : (ℓ : Loc nD τ sig) → Buf (Elt F) ℓ) (c : Dev nD) : Valuation τ sig (Elt F) := after ops2 (V1 m c)
/-- The memory after stretch 3. -/
def V3 (m : (ℓ : Loc nD τ sig) → Buf (Elt F) ℓ) (c : Dev nD) : Valuation τ sig (Elt F) := after ops3 (V2 m c)
/-- The memory after stretch 4. -/
def V4 (m : (ℓ : Loc nD τ sig) → Buf (Elt F) ℓ) (c : Dev nD) : Valuation τ sig (Elt F) := after ops4 (V3 m c)
/-- The memory after stretch 5. -/
def V5 (m : (ℓ : Loc nD τ sig) → Buf (Elt F) ℓ) (c : Dev nD) : Valuation τ sig (Elt F) := after ops5 (V4 m c)
/-- The memory after stretch 6. -/
def V6 (m : (ℓ : Loc nD τ sig) → Buf (Elt F) ℓ) (c : Dev nD) : Valuation τ sig (Elt F) := after ops6 (V5 m c)
/-- The memory after stretch 7. -/
def V7 (m : (ℓ : Loc nD τ sig) → Buf (Elt F) ℓ) (c : Dev nD) : Valuation τ sig (Elt F) := after ops7 (V6 m c)
/-- The memory after stretch 8. -/
def V8 (m : (ℓ : Loc nD τ sig) → Buf (Elt F) ℓ) (c : Dev nD) : Valuation τ sig (Elt F) := after ops8 (V7 m c)
/-- The memory after stretch 9. -/
def V9 (m : (ℓ : Loc nD τ sig) → Buf (Elt F) ℓ) (c : Dev nD) : Valuation τ sig (Elt F) := after ops9 (V8 m c)

variable (m : (ℓ : Loc nD τ sig) → Buf (Elt F) ℓ) (c : Dev nD)

theorem at1_main_cst_2 : V1 m c (Proc.devRef .tc main_cst_2) = val_main_cst_2 (F := F) :=
  s1_main_cst_2 (m ((c.tc : Thread nD τ).loc main_arg0)) (m ((c.tc : Thread nD τ).loc main_arg1)) (m ((c.tc : Thread nD τ).loc main_arg2)) (launchContents m c) rfl rfl rfl
theorem at1_main_v15 : V1 m c (Proc.devRef .tc main_v15) = val_main_v15 (F := F) (m ((c.tc : Thread nD τ).loc main_arg1)) :=
  s1_main_v15 (m ((c.tc : Thread nD τ).loc main_arg0)) (m ((c.tc : Thread nD τ).loc main_arg1)) (m ((c.tc : Thread nD τ).loc main_arg2)) (launchContents m c) rfl rfl rfl
theorem at1_main_v16 : V1 m c (Proc.devRef .tc main_v16) = val_main_v16 (F := F) (m ((c.tc : Thread nD τ).loc main_arg1)) :=
  s1_main_v16 (m ((c.tc : Thread nD τ).loc main_arg0)) (m ((c.tc : Thread nD τ).loc main_arg1)) (m ((c.tc : Thread nD τ).loc main_arg2)) (launchContents m c) rfl rfl rfl
theorem at1_main_v7 : V1 m c (Proc.devRef .tc main_v7) = val_main_v7 (F := F) (m ((c.tc : Thread nD τ).loc main_arg1)) :=
  s1_main_v7 (m ((c.tc : Thread nD τ).loc main_arg0)) (m ((c.tc : Thread nD τ).loc main_arg1)) (m ((c.tc : Thread nD τ).loc main_arg2)) (launchContents m c) rfl rfl rfl
theorem at1_main_v9 : V1 m c (Proc.devRef .tc main_v9) = val_main_v9 (F := F) (m ((c.tc : Thread nD τ).loc main_arg1)) :=
  s1_main_v9 (m ((c.tc : Thread nD τ).loc main_arg0)) (m ((c.tc : Thread nD τ).loc main_arg1)) (m ((c.tc : Thread nD τ).loc main_arg2)) (launchContents m c) rfl rfl rfl
theorem at1_main_v5 : V1 m c (Proc.devRef .tc main_v5) = val_main_v5 (F := F) (m ((c.tc : Thread nD τ).loc main_arg0)) (m ((c.tc : Thread nD τ).loc main_arg2)) :=
  s1_main_v5 (m ((c.tc : Thread nD τ).loc main_arg0)) (m ((c.tc : Thread nD τ).loc main_arg1)) (m ((c.tc : Thread nD τ).loc main_arg2)) (launchContents m c) rfl rfl rfl
theorem at1_main_arg3 : V1 m c (Proc.devRef .tc main_arg3) = (m ((c.tc : Thread nD τ).loc main_arg3)) :=
  (s1_keep (launchContents m c) main_arg3 (Or.inl rfl)).trans rfl
theorem at1_main_arg4 : V1 m c (Proc.devRef .tc main_arg4) = (m ((c.tc : Thread nD τ).loc main_arg4)) :=
  (s1_keep (launchContents m c) main_arg4 (Or.inr (Or.inl rfl))).trans rfl
theorem at1_main_v4 : V1 m c (Proc.devRef .tc main_v4) = val_main_v4 (F := F) (m ((c.tc : Thread nD τ).loc main_arg1)) :=
  s1_main_v4 (m ((c.tc : Thread nD τ).loc main_arg0)) (m ((c.tc : Thread nD τ).loc main_arg1)) (m ((c.tc : Thread nD τ).loc main_arg2)) (launchContents m c) rfl rfl rfl
theorem at1_main_arg5 : V1 m c (Proc.devRef .tc main_arg5) = (m ((c.tc : Thread nD τ).loc main_arg5)) :=
  (s1_keep (launchContents m c) main_arg5 (Or.inr (Or.inr (Or.inl rfl)))).trans rfl
theorem at1_main_arg0 : V1 m c (Proc.devRef .tc main_arg0) = (m ((c.tc : Thread nD τ).loc main_arg0)) :=
  (s1_keep (launchContents m c) main_arg0 (Or.inr (Or.inr (Or.inr (Or.inl rfl))))).trans rfl
theorem at1_main_arg1 : V1 m c (Proc.devRef .tc main_arg1) = (m ((c.tc : Thread nD τ).loc main_arg1)) :=
  (s1_keep (launchContents m c) main_arg1 (Or.inr (Or.inr (Or.inr (Or.inr (Or.inl rfl)))))).trans rfl
theorem at1_main_arg2 : V1 m c (Proc.devRef .tc main_arg2) = (m ((c.tc : Thread nD τ).loc main_arg2)) :=
  (s1_keep (launchContents m c) main_arg2 (Or.inr (Or.inr (Or.inr (Or.inr (Or.inr rfl)))))).trans rfl

theorem at2_main_v7 : V2 m c (Proc.devRef .tc main_v7) = val_main_v7 (F := F) (m ((c.tc : Thread nD τ).loc main_arg1)) :=
  (s2_keep (V1 m c) main_v7 (Or.inl rfl)).trans (at1_main_v7 m c)
theorem at2_main_v5 : V2 m c (Proc.devRef .tc main_v5) = val_main_v5 (F := F) (m ((c.tc : Thread nD τ).loc main_arg0)) (m ((c.tc : Thread nD τ).loc main_arg2)) :=
  (s2_keep (V1 m c) main_v5 (Or.inr (Or.inl rfl))).trans (at1_main_v5 m c)
theorem at2_main_v32 : V2 m c (Proc.devRef .tc main_v32) = val_main_v32 (F := F) (m ((c.tc : Thread nD τ).loc main_arg1)) :=
  s2_main_v32 (m ((c.tc : Thread nD τ).loc main_arg1)) (V1 m c) (at1_main_cst_2 m c) (at1_main_v15 m c) (at1_main_v16 m c) (at1_main_v7 m c) (at1_main_v9 m c)
theorem at2_main_v9 : V2 m c (Proc.devRef .tc main_v9) = val_main_v9 (F := F) (m ((c.tc : Thread nD τ).loc main_arg1)) :=
  (s2_keep (V1 m c) main_v9 (Or.inr (Or.inr (Or.inl rfl)))).trans (at1_main_v9 m c)
theorem at2_main_arg3 : V2 m c (Proc.devRef .tc main_arg3) = (m ((c.tc : Thread nD τ).loc main_arg3)) :=
  (s2_keep (V1 m c) main_arg3 (Or.inr (Or.inr (Or.inr (Or.inl rfl))))).trans (at1_main_arg3 m c)
theorem at2_main_arg4 : V2 m c (Proc.devRef .tc main_arg4) = (m ((c.tc : Thread nD τ).loc main_arg4)) :=
  (s2_keep (V1 m c) main_arg4 (Or.inr (Or.inr (Or.inr (Or.inr (Or.inl rfl)))))).trans (at1_main_arg4 m c)
theorem at2_main_v4 : V2 m c (Proc.devRef .tc main_v4) = val_main_v4 (F := F) (m ((c.tc : Thread nD τ).loc main_arg1)) :=
  (s2_keep (V1 m c) main_v4 (Or.inr (Or.inr (Or.inr (Or.inr (Or.inr (Or.inl rfl))))))).trans (at1_main_v4 m c)
theorem at2_main_arg5 : V2 m c (Proc.devRef .tc main_arg5) = (m ((c.tc : Thread nD τ).loc main_arg5)) :=
  (s2_keep (V1 m c) main_arg5 (Or.inr (Or.inr (Or.inr (Or.inr (Or.inr (Or.inr (Or.inl rfl)))))))).trans (at1_main_arg5 m c)
theorem at2_main_arg0 : V2 m c (Proc.devRef .tc main_arg0) = (m ((c.tc : Thread nD τ).loc main_arg0)) :=
  (s2_keep (V1 m c) main_arg0 (Or.inr (Or.inr (Or.inr (Or.inr (Or.inr (Or.inr (Or.inr (Or.inl rfl))))))))).trans (at1_main_arg0 m c)
theorem at2_main_arg1 : V2 m c (Proc.devRef .tc main_arg1) = (m ((c.tc : Thread nD τ).loc main_arg1)) :=
  (s2_keep (V1 m c) main_arg1 (Or.inr (Or.inr (Or.inr (Or.inr (Or.inr (Or.inr (Or.inr (Or.inr (Or.inl rfl)))))))))).trans (at1_main_arg1 m c)
theorem at2_main_arg2 : V2 m c (Proc.devRef .tc main_arg2) = (m ((c.tc : Thread nD τ).loc main_arg2)) :=
  (s2_keep (V1 m c) main_arg2 (Or.inr (Or.inr (Or.inr (Or.inr (Or.inr (Or.inr (Or.inr (Or.inr (Or.inr rfl)))))))))).trans (at1_main_arg2 m c)

theorem at3_main_v49 : V3 m c (Proc.devRef .tc main_v49) = val_main_v49 (F := F) (m ((c.tc : Thread nD τ).loc main_arg0)) (m ((c.tc : Thread nD τ).loc main_arg1)) (m ((c.tc : Thread nD τ).loc main_arg2)) (m ((c.tc : Thread nD τ).loc main_arg3)) :=
  s3_main_v49 (m ((c.tc : Thread nD τ).loc main_arg0)) (m ((c.tc : Thread nD τ).loc main_arg1)) (m ((c.tc : Thread nD τ).loc main_arg2)) (m ((c.tc : Thread nD τ).loc main_arg3)) (V2 m c) (at2_main_v7 m c) (at2_main_v5 m c) (at2_main_v32 m c) (at2_main_v9 m c) (at2_main_arg3 m c)
theorem at3_main_arg4 : V3 m c (Proc.devRef .tc main_arg4) = (m ((c.tc : Thread nD τ).loc main_arg4)) :=
  (s3_keep (V2 m c) main_arg4 (Or.inl rfl)).trans (at2_main_arg4 m c)
theorem at3_main_v4 : V3 m c (Proc.devRef .tc main_v4) = val_main_v4 (F := F) (m ((c.tc : Thread nD τ).loc main_arg1)) :=
  (s3_keep (V2 m c) main_v4 (Or.inr (Or.inl rfl))).trans (at2_main_v4 m c)
theorem at3_main_arg5 : V3 m c (Proc.devRef .tc main_arg5) = (m ((c.tc : Thread nD τ).loc main_arg5)) :=
  (s3_keep (V2 m c) main_arg5 (Or.inr (Or.inr (Or.inl rfl)))).trans (at2_main_arg5 m c)
theorem at3_main_arg0 : V3 m c (Proc.devRef .tc main_arg0) = (m ((c.tc : Thread nD τ).loc main_arg0)) :=
  (s3_keep (V2 m c) main_arg0 (Or.inr (Or.inr (Or.inr (Or.inl rfl))))).trans (at2_main_arg0 m c)
theorem at3_main_arg1 : V3 m c (Proc.devRef .tc main_arg1) = (m ((c.tc : Thread nD τ).loc main_arg1)) :=
  (s3_keep (V2 m c) main_arg1 (Or.inr (Or.inr (Or.inr (Or.inr (Or.inl rfl)))))).trans (at2_main_arg1 m c)
theorem at3_main_arg2 : V3 m c (Proc.devRef .tc main_arg2) = (m ((c.tc : Thread nD τ).loc main_arg2)) :=
  (s3_keep (V2 m c) main_arg2 (Or.inr (Or.inr (Or.inr (Or.inr (Or.inr (Or.inl rfl))))))).trans (at2_main_arg2 m c)
theorem at3_main_arg3 : V3 m c (Proc.devRef .tc main_arg3) = (m ((c.tc : Thread nD τ).loc main_arg3)) :=
  (s3_keep (V2 m c) main_arg3 (Or.inr (Or.inr (Or.inr (Or.inr (Or.inr (Or.inr rfl))))))).trans (at2_main_arg3 m c)

theorem at4_main_v52 : V4 m c (Proc.devRef .tc main_v52) = val_main_v52 (F := F) (m ((c.tc : Thread nD τ).loc main_arg1)) :=
  s4_main_v52 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (V3 m c) (at3_main_v49 m c) (at3_main_arg4 m c) (at3_main_v4 m c)
theorem at4_main_v62 : V4 m c (Proc.devRef .tc main_v62) = val_main_v62 (F := F) (m ((c.tc : Thread nD τ).loc main_arg1)) :=
  s4_main_v62 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (V3 m c) (at3_main_v49 m c) (at3_main_arg4 m c) (at3_main_v4 m c)
theorem at4_main_v54 : V4 m c (Proc.devRef .tc main_v54) = val_main_v54 (F := F) (m ((c.tc : Thread nD τ).loc main_arg1)) :=
  s4_main_v54 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (V3 m c) (at3_main_v49 m c) (at3_main_arg4 m c) (at3_main_v4 m c)
theorem at4_main_v50 : V4 m c (Proc.devRef .tc main_v50) = val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  s4_main_v50 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (V3 m c) (at3_main_v49 m c) (at3_main_arg4 m c) (at3_main_v4 m c)
theorem at4_main_arg5 : V4 m c (Proc.devRef .tc main_arg5) = (m ((c.tc : Thread nD τ).loc main_arg5)) :=
  (s4_keep (V3 m c) main_arg5 (Or.inl rfl)).trans (at3_main_arg5 m c)
theorem at4_main_arg0 : V4 m c (Proc.devRef .tc main_arg0) = (m ((c.tc : Thread nD τ).loc main_arg0)) :=
  (s4_keep (V3 m c) main_arg0 (Or.inr (Or.inl rfl))).trans (at3_main_arg0 m c)
theorem at4_main_arg1 : V4 m c (Proc.devRef .tc main_arg1) = (m ((c.tc : Thread nD τ).loc main_arg1)) :=
  (s4_keep (V3 m c) main_arg1 (Or.inr (Or.inr (Or.inl rfl)))).trans (at3_main_arg1 m c)
theorem at4_main_arg2 : V4 m c (Proc.devRef .tc main_arg2) = (m ((c.tc : Thread nD τ).loc main_arg2)) :=
  (s4_keep (V3 m c) main_arg2 (Or.inr (Or.inr (Or.inr (Or.inl rfl))))).trans (at3_main_arg2 m c)
theorem at4_main_arg3 : V4 m c (Proc.devRef .tc main_arg3) = (m ((c.tc : Thread nD τ).loc main_arg3)) :=
  (s4_keep (V3 m c) main_arg3 (Or.inr (Or.inr (Or.inr (Or.inr (Or.inl rfl)))))).trans (at3_main_arg3 m c)
theorem at4_main_arg4 : V4 m c (Proc.devRef .tc main_arg4) = (m ((c.tc : Thread nD τ).loc main_arg4)) :=
  (s4_keep (V3 m c) main_arg4 (Or.inr (Or.inr (Or.inr (Or.inr (Or.inr rfl)))))).trans (at3_main_arg4 m c)

theorem at5_main_v52 : V5 m c (Proc.devRef .tc main_v52) = val_main_v52 (F := F) (m ((c.tc : Thread nD τ).loc main_arg1)) :=
  (s5_keep (V4 m c) main_v52 (Or.inl rfl)).trans (at4_main_v52 m c)
theorem at5_main_v50 : V5 m c (Proc.devRef .tc main_v50) = val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (s5_keep (V4 m c) main_v50 (Or.inr (Or.inl rfl))).trans (at4_main_v50 m c)
theorem at5_main_v77 : V5 m c (Proc.devRef .tc main_v77) = val_main_v77 (F := F) (m ((c.tc : Thread nD τ).loc main_arg1)) :=
  s5_main_v77 (m ((c.tc : Thread nD τ).loc main_arg1)) (V4 m c) (at4_main_v52 m c) (at4_main_v62 m c) (at4_main_v54 m c)
theorem at5_main_v54 : V5 m c (Proc.devRef .tc main_v54) = val_main_v54 (F := F) (m ((c.tc : Thread nD τ).loc main_arg1)) :=
  (s5_keep (V4 m c) main_v54 (Or.inr (Or.inr (Or.inl rfl)))).trans (at4_main_v54 m c)
theorem at5_main_arg5 : V5 m c (Proc.devRef .tc main_arg5) = (m ((c.tc : Thread nD τ).loc main_arg5)) :=
  (s5_keep (V4 m c) main_arg5 (Or.inr (Or.inr (Or.inr (Or.inl rfl))))).trans (at4_main_arg5 m c)
theorem at5_main_arg0 : V5 m c (Proc.devRef .tc main_arg0) = (m ((c.tc : Thread nD τ).loc main_arg0)) :=
  (s5_keep (V4 m c) main_arg0 (Or.inr (Or.inr (Or.inr (Or.inr (Or.inl rfl)))))).trans (at4_main_arg0 m c)
theorem at5_main_arg1 : V5 m c (Proc.devRef .tc main_arg1) = (m ((c.tc : Thread nD τ).loc main_arg1)) :=
  (s5_keep (V4 m c) main_arg1 (Or.inr (Or.inr (Or.inr (Or.inr (Or.inr (Or.inl rfl))))))).trans (at4_main_arg1 m c)
theorem at5_main_arg2 : V5 m c (Proc.devRef .tc main_arg2) = (m ((c.tc : Thread nD τ).loc main_arg2)) :=
  (s5_keep (V4 m c) main_arg2 (Or.inr (Or.inr (Or.inr (Or.inr (Or.inr (Or.inr (Or.inl rfl)))))))).trans (at4_main_arg2 m c)
theorem at5_main_arg3 : V5 m c (Proc.devRef .tc main_arg3) = (m ((c.tc : Thread nD τ).loc main_arg3)) :=
  (s5_keep (V4 m c) main_arg3 (Or.inr (Or.inr (Or.inr (Or.inr (Or.inr (Or.inr (Or.inr (Or.inl rfl))))))))).trans (at4_main_arg3 m c)
theorem at5_main_arg4 : V5 m c (Proc.devRef .tc main_arg4) = (m ((c.tc : Thread nD τ).loc main_arg4)) :=
  (s5_keep (V4 m c) main_arg4 (Or.inr (Or.inr (Or.inr (Or.inr (Or.inr (Or.inr (Or.inr (Or.inr rfl))))))))).trans (at4_main_arg4 m c)

theorem at6_main_v93 : V6 m c (Proc.devRef .tc main_v93) = val_main_v93 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  s6_main_v93 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (V5 m c) (at5_main_v52 m c) (at5_main_v50 m c) (at5_main_v77 m c) (at5_main_v54 m c) (at5_main_arg5 m c)
theorem at6_main_arg0 : V6 m c (Proc.devRef .tc main_arg0) = (m ((c.tc : Thread nD τ).loc main_arg0)) :=
  (s6_keep (V5 m c) main_arg0 (Or.inl rfl)).trans (at5_main_arg0 m c)
theorem at6_main_arg1 : V6 m c (Proc.devRef .tc main_arg1) = (m ((c.tc : Thread nD τ).loc main_arg1)) :=
  (s6_keep (V5 m c) main_arg1 (Or.inr (Or.inl rfl))).trans (at5_main_arg1 m c)
theorem at6_main_arg2 : V6 m c (Proc.devRef .tc main_arg2) = (m ((c.tc : Thread nD τ).loc main_arg2)) :=
  (s6_keep (V5 m c) main_arg2 (Or.inr (Or.inr (Or.inl rfl)))).trans (at5_main_arg2 m c)
theorem at6_main_arg3 : V6 m c (Proc.devRef .tc main_arg3) = (m ((c.tc : Thread nD τ).loc main_arg3)) :=
  (s6_keep (V5 m c) main_arg3 (Or.inr (Or.inr (Or.inr (Or.inl rfl))))).trans (at5_main_arg3 m c)
theorem at6_main_arg4 : V6 m c (Proc.devRef .tc main_arg4) = (m ((c.tc : Thread nD τ).loc main_arg4)) :=
  (s6_keep (V5 m c) main_arg4 (Or.inr (Or.inr (Or.inr (Or.inr (Or.inl rfl)))))).trans (at5_main_arg4 m c)
theorem at6_main_arg5 : V6 m c (Proc.devRef .tc main_arg5) = (m ((c.tc : Thread nD τ).loc main_arg5)) :=
  (s6_keep (V5 m c) main_arg5 (Or.inr (Or.inr (Or.inr (Or.inr (Or.inr rfl)))))).trans (at5_main_arg5 m c)

theorem at7_main_call3_v0 : V7 m c (Proc.devRef .tc main_call3_v0) = val_main_call3_v0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  s7_main_call3_v0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (V6 m c) (at6_main_v93 m c)
theorem at7_main_v93 : V7 m c (Proc.devRef .tc main_v93) = val_main_v93 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (s7_keep (V6 m c) main_v93 (Or.inl rfl)).trans (at6_main_v93 m c)
theorem at7_main_arg0 : V7 m c (Proc.devRef .tc main_arg0) = (m ((c.tc : Thread nD τ).loc main_arg0)) :=
  (s7_keep (V6 m c) main_arg0 (Or.inr (Or.inl rfl))).trans (at6_main_arg0 m c)
theorem at7_main_arg1 : V7 m c (Proc.devRef .tc main_arg1) = (m ((c.tc : Thread nD τ).loc main_arg1)) :=
  (s7_keep (V6 m c) main_arg1 (Or.inr (Or.inr (Or.inl rfl)))).trans (at6_main_arg1 m c)
theorem at7_main_arg2 : V7 m c (Proc.devRef .tc main_arg2) = (m ((c.tc : Thread nD τ).loc main_arg2)) :=
  (s7_keep (V6 m c) main_arg2 (Or.inr (Or.inr (Or.inr (Or.inl rfl))))).trans (at6_main_arg2 m c)
theorem at7_main_arg3 : V7 m c (Proc.devRef .tc main_arg3) = (m ((c.tc : Thread nD τ).loc main_arg3)) :=
  (s7_keep (V6 m c) main_arg3 (Or.inr (Or.inr (Or.inr (Or.inr (Or.inl rfl)))))).trans (at6_main_arg3 m c)
theorem at7_main_arg4 : V7 m c (Proc.devRef .tc main_arg4) = (m ((c.tc : Thread nD τ).loc main_arg4)) :=
  (s7_keep (V6 m c) main_arg4 (Or.inr (Or.inr (Or.inr (Or.inr (Or.inr (Or.inl rfl))))))).trans (at6_main_arg4 m c)
theorem at7_main_arg5 : V7 m c (Proc.devRef .tc main_arg5) = (m ((c.tc : Thread nD τ).loc main_arg5)) :=
  (s7_keep (V6 m c) main_arg5 (Or.inr (Or.inr (Or.inr (Or.inr (Or.inr (Or.inr rfl))))))).trans (at6_main_arg5 m c)

theorem at8_main_call3_v5 : V8 m c (Proc.devRef .tc main_call3_v5) = val_main_call3_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  s8_main_call3_v5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (V7 m c) (at7_main_call3_v0 m c) (at7_main_v93 m c)
theorem at8_main_arg0 : V8 m c (Proc.devRef .tc main_arg0) = (m ((c.tc : Thread nD τ).loc main_arg0)) :=
  (s8_keep (V7 m c) main_arg0 (Or.inl rfl)).trans (at7_main_arg0 m c)
theorem at8_main_arg1 : V8 m c (Proc.devRef .tc main_arg1) = (m ((c.tc : Thread nD τ).loc main_arg1)) :=
  (s8_keep (V7 m c) main_arg1 (Or.inr (Or.inl rfl))).trans (at7_main_arg1 m c)
theorem at8_main_arg2 : V8 m c (Proc.devRef .tc main_arg2) = (m ((c.tc : Thread nD τ).loc main_arg2)) :=
  (s8_keep (V7 m c) main_arg2 (Or.inr (Or.inr (Or.inl rfl)))).trans (at7_main_arg2 m c)
theorem at8_main_arg3 : V8 m c (Proc.devRef .tc main_arg3) = (m ((c.tc : Thread nD τ).loc main_arg3)) :=
  (s8_keep (V7 m c) main_arg3 (Or.inr (Or.inr (Or.inr (Or.inl rfl))))).trans (at7_main_arg3 m c)
theorem at8_main_arg4 : V8 m c (Proc.devRef .tc main_arg4) = (m ((c.tc : Thread nD τ).loc main_arg4)) :=
  (s8_keep (V7 m c) main_arg4 (Or.inr (Or.inr (Or.inr (Or.inr (Or.inl rfl)))))).trans (at7_main_arg4 m c)
theorem at8_main_arg5 : V8 m c (Proc.devRef .tc main_arg5) = (m ((c.tc : Thread nD τ).loc main_arg5)) :=
  (s8_keep (V7 m c) main_arg5 (Or.inr (Or.inr (Or.inr (Or.inr (Or.inr rfl)))))).trans (at7_main_arg5 m c)

theorem at9_main_arg0 : V9 m c (Proc.devRef .tc main_arg0) = (m ((c.tc : Thread nD τ).loc main_arg0)) :=
  (s9_keep (V8 m c) main_arg0 (Or.inl rfl)).trans (at8_main_arg0 m c)
theorem at9_main_arg1 : V9 m c (Proc.devRef .tc main_arg1) = (m ((c.tc : Thread nD τ).loc main_arg1)) :=
  (s9_keep (V8 m c) main_arg1 (Or.inr (Or.inl rfl))).trans (at8_main_arg1 m c)
theorem at9_main_arg2 : V9 m c (Proc.devRef .tc main_arg2) = (m ((c.tc : Thread nD τ).loc main_arg2)) :=
  (s9_keep (V8 m c) main_arg2 (Or.inr (Or.inr (Or.inl rfl)))).trans (at8_main_arg2 m c)
theorem at9_main_arg3 : V9 m c (Proc.devRef .tc main_arg3) = (m ((c.tc : Thread nD τ).loc main_arg3)) :=
  (s9_keep (V8 m c) main_arg3 (Or.inr (Or.inr (Or.inr (Or.inl rfl))))).trans (at8_main_arg3 m c)
theorem at9_main_arg4 : V9 m c (Proc.devRef .tc main_arg4) = (m ((c.tc : Thread nD τ).loc main_arg4)) :=
  (s9_keep (V8 m c) main_arg4 (Or.inr (Or.inr (Or.inr (Or.inr (Or.inl rfl)))))).trans (at8_main_arg4 m c)
theorem at9_main_arg5 : V9 m c (Proc.devRef .tc main_arg5) = (m ((c.tc : Thread nD τ).loc main_arg5)) :=
  (s9_keep (V8 m c) main_arg5 (Or.inr (Or.inr (Or.inr (Or.inr (Or.inr rfl)))))).trans (at8_main_arg5 m c)
theorem at9_main_v94 : V9 m c (Proc.devRef .tc main_v94) = val_main_v94 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  s9_main_v94 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (V8 m c) (at8_main_call3_v5 m c)

/-- The fold of the whole line is the memory after the last stretch. -/
theorem after_ops : after (ops (F := F)) (launchContents m c) = V9 m c := by
  simp only [ops, after_append]
  rfl

/-- On every device, from any memory with zero counters: every weakly fair execution of the reference terminates with
    its result at the last stage of the argument arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = val_main_v94 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v94).trans ((congrFun (after_ops m c) _).trans (at9_main_v94 m c)),
      (h c main_arg0).trans ((congrFun (after_ops m c) _).trans (at9_main_arg0 m c)),
      (h c main_arg1).trans ((congrFun (after_ops m c) _).trans (at9_main_arg1 m c)),
      (h c main_arg2).trans ((congrFun (after_ops m c) _).trans (at9_main_arg2 m c)),
      (h c main_arg3).trans ((congrFun (after_ops m c) _).trans (at9_main_arg3 m c)),
      (h c main_arg4).trans ((congrFun (after_ops m c) _).trans (at9_main_arg4 m c)),
      (h c main_arg5).trans ((congrFun (after_ops m c) _).trans (at9_main_arg5 m c))⟩)
    (run_seq scopedRefs_eq scopedSems_eq defs main (fun _ => ops) main_eq (fun _ => ops_sub) m ρ)

end Program

end Cert.ReferenceIdeal.Ran

end
-- ==== Proof.lean ====
/-
  A two-layer graph convolution with a log-softmax head: the kernel against its reference, over the extended reals.

  Both programs append one self loop per node to the edge list, count in-degrees by a scatter sum of ones, weigh each
  edge by d(row)^(-1/2)·d(col)^(-1/2), and twice transform the features by a dense product, gather the rows at the source
  nodes, scale by the edge weights and scatter-sum at the target nodes; a bias and a rectifier follow the first layer, a bias
  and a row-wise log-softmax the second. The kernel does the two dense products and the bias-plus-log-softmax in tiled
  regions of twenty row bands each and everything else in host operations; the reference does everything in host
  operations and computes the edge rows and weights once per layer.

  Over the extended reals a change of float format is the identity and a product accumulated into zeros is the plain sum
  over the contracted coordinate, so each band of a dense region is the band of the one whole product, and the twenty
  bands tile the result. A band of the last region is the log-softmax of its rows plus the bias; the reference's row
  maximum max(c, running maximum from c) is the running maximum, and its sum of exponentials starts from zero. The host
  operations in between are the reference's own operations applied to equal arrays. No step moves a factor across a sum
  or cancels anything, so the finiteness of the inputs is never used: the two results are equal entry by entry for all
  extended-real inputs. The idealization rewrote nothing, so the kernel's idealized program is its own text.
-/
import proofs.«159831_j67430986547796_1_alg».proof.Defs
import proofs.«159831_j67430986547796_1_alg».proof.Proof.Gen.Kernel
import proofs.«159831_j67430986547796_1_alg».proof.Proof.Gen.Kernel.Skeleton
import proofs.«159831_j67430986547796_1_alg».proof.Proof.Gen.Kernel.Launch
import proofs.«159831_j67430986547796_1_alg».proof.Proof.Gen.Kernel.Points
import proofs.«159831_j67430986547796_1_alg».proof.Proof.Gen.Kernel.Frame
import proofs.«159831_j67430986547796_1_alg».proof.Proof.Gen.KernelIdeal
import proofs.«159831_j67430986547796_1_alg».proof.Proof.Gen.KernelIdeal.Skeleton
import proofs.«159831_j67430986547796_1_alg».proof.Proof.Gen.KernelIdeal.Launch
import proofs.«159831_j67430986547796_1_alg».proof.Proof.Gen.KernelIdeal.Points
import proofs.«159831_j67430986547796_1_alg».proof.Proof.Gen.KernelIdeal.Frame
import proofs.«159831_j67430986547796_1_alg».proof.Proof.Gen.ReferenceIdeal
import proofs.«159831_j67430986547796_1_alg».proof.Proof.Gen.Pre_finite_inputs
import proofs.«159831_j67430986547796_1_alg».proof.Proof.KernelRun
import proofs.«159831_j67430986547796_1_alg».proof.Proof.Bridge
import proofs.«159831_j67430986547796_1_alg».proof.Proof.RefRun
import Idealize.ShloMosaic.Adequacy
import Idealize.ShloMosaic.Init

noncomputable section

namespace Cert.Proof

open Idealize.ShloMosaic Idealize.SL.Sem

/-- The printed kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Ran.run (F := Ideal) m ρ)

/-- The idealization rewrote nothing. -/
theorem preserves : Cert.preserves_Kernel_KernelIdeal := trivial

/-- From memories that agree on the six arguments both programs end with the reference's last stage of those arguments
    in their result buffers. -/
theorem algebraic : Cert.algebraic_KernelIdeal_ReferenceIdeal := by
  intro m ρ m' ρ' _ hagree
  refine ⟨fun c => Cert.ReferenceIdeal.ReadP.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Bridge.result m ρ c), (h c).2⟩) (Cert.KernelIdeal.Out.run (F := Ideal) m ρ)
  · refine (θ_run Cert.ReferenceIdeal.defs _ _).mono (fun r h c => ⟨?_, (h c).2⟩) (Cert.ReferenceIdeal.Ran.run (F := Ideal) m' ρ')
    rw [(h c).1, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
